-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x4 : Shape := ⟨2, ![8388608, 4]⟩
abbrev S8388608 : Shape := ⟨1, ![8388608]⟩
abbrev S_ : Shape := ⟨0, ![]⟩

class Facts : Prop where
  bcast_S_S8388608x4 : S_.BroadcastsInDim S8388608x4 (![] : Fin 0 → Fin S8388608x4.rank)
  reducesTo_S8388608x4_S_d0_1 : S8388608x4.ReducesTo [0, 1] S_
  h_S_ : 0 < S_.numel

variable [Facts]

def fn {F : FTy → Type} [FloatOps F] (main_arg0 : FVec F S8388608x4 .f32) (main_arg1 : IVec S8388608 32) : IVec S_ 1 :=
  let main_v0 : FVec F S8388608x4 .f32 := Host.absf main_arg0
  let main_cst : FVec F S_ .f32 := constant S_ .f32 0x7F800000#32
  let main_v1 : FVec F S8388608x4 .f32 := broadcastInDim S8388608x4 ![] bcast_S_S8388608x4 main_cst
  let main_v2 : IVec S8388608x4 1 := cmpf .olt main_v0 main_v1
  let main_c : IVec S_ 1 := constantI S_ 1 1#1
  let main_v3 : IVec S_ 1 := (fun x v => Host.reduce IntOp.andi x v reducesTo_S8388608x4_S_d0_1 h_S_) main_v2 main_c
  main_v3
-- ==== Kernel.lean ====
abbrev S8388608x4 : Shape := ⟨2, ![8388608, 4]⟩
abbrev S8388608 : Shape := ⟨1, ![8388608]⟩
abbrev S8388608x1 : Shape := ⟨2, ![8388608, 1]⟩
abbrev S1x3 : Shape := ⟨2, ![1, 3]⟩
abbrev S8192x4 : Shape := ⟨2, ![8192, 4]⟩
abbrev S8192x1 : Shape := ⟨2, ![8192, 1]⟩
abbrev S8192 : Shape := ⟨1, ![8192]⟩
abbrev S1 : Shape := ⟨1, ![1]⟩
abbrev S1x1 : Shape := ⟨2, ![1, 1]⟩
abbrev S_ : Shape := ⟨0, ![]⟩

abbrev nBuf : Space → Nat
  | .hbm => 24
  | .vmem => 5
  | .smem => 0
  | _ => 0

abbrev bufTy : (tb : Table) → Fin (tcTables nBuf tb) → BufTy
  | .hbm, ⟨0, _⟩ => ⟨S8388608x4, .f32⟩
  | .hbm, ⟨1, _⟩ => ⟨S8388608, .i32⟩
  | .hbm, ⟨2, _⟩ => ⟨S8388608x1, .i32⟩
  | .hbm, ⟨3, _⟩ => ⟨S1x3, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S8192x4, .f32⟩
  | .local _ .vmem, ⟨1, _⟩ => ⟨S8192x4, .f32⟩
  | .local _ .vmem, ⟨2, _⟩ => ⟨S8192x1, .i32⟩
  | .local _ .vmem, ⟨3, _⟩ => ⟨S8192x1, .i32⟩
  | .local _ .vmem, ⟨4, _⟩ => ⟨S1x3, .f32⟩
  | _, _ => ⟨S8388608x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S8388608_S8388608x1 : S8388608.ShapeCasts S8388608x1
  inb_S1x3_S1x3_0_0 : ∀ a, (![0, 0] : Fin 2 → Nat) a + S1x3.size a ≤ S1x3.size a
  h_S1x3 : 0 < S1x3.numel
  inb_S8192x4_S8192x4_0_0 : ∀ a, (![0, 0] : Fin 2 → Nat) a + S8192x4.size a ≤ S8192x4.size a
  h_S8192x4 : 0 < S8192x4.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  reduces_S8192x4_S8192 : S8192x4.Reduces [1] S8192
  shapeCasts_S8192_S8192x1 : S8192.ShapeCasts S8192x1
  broadcasts_S8192x1_S8192x4 : S8192x1.Broadcasts S8192x4
  slices_S8192x4_o0_0_S8192x1 : S8192x4.Slices ![0, 0] S8192x1
  slices_S8192x4_o0_1_S8192x1 : S8192x4.Slices ![0, 1] S8192x1
  slices_S8192x4_o0_2_S8192x1 : S8192x4.Slices ![0, 2] S8192x1
  slices_S8192x4_o0_3_S8192x1 : S8192x4.Slices ![0, 3] S8192x1
  reduces_S8192x1_S1 : S8192x1.Reduces [0] S1
  shapeCasts_S1_S1x1 : S1.ShapeCasts S1x1
  natLt_1_32 : 1 < 32
  concatenates_S1x1_S1x1_S1x1_S1x3_d1 : Shape.Concatenates [S1x1, S1x1, S1x1] S1x3 1
  shapeCasts_S1x3_S1x3 : S1x3.ShapeCasts S1x3
  slices_S1x3_S1x1_0_0 : S1x3.Slices ![0, 0] S1x1
  shapeCasts_S1x1_S_ : S1x1.ShapeCasts S_
  slices_S1x3_S1x1_0_1 : S1x3.Slices ![0, 1] S1x1
  slices_S1x3_S1x1_0_2 : S1x3.Slices ![0, 2] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x4.size a ≤ S8388608x4.size a
  hwx0_0 : ∀ i : grid0.Coords, EltTy.bits .f32 = 32 ∨ (Rect.block (s := S8388608x4) S8192x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S8388608x1.size a
  hwx0_1 : ∀ i : grid0.Coords, EltTy.bits .i32 = 32 ∨ (Rect.block (s := S8388608x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3.size a ≤ S1x3.size a
  hwx0_2 : ∀ i : grid0.Coords, EltTy.bits .f32 = 32 ∨ (Rect.block (s := S1x3) S1x3.size (cc0_transform_2 i) (hinb0_2 i)).WholeWords (EltTy.packing .f32)

variable [Facts₀]

abbrev win0_0 : Pipeline.Window sig grid0 :=
  Pipeline.Window.ofSpec (Memref.whole main_arg0) S8192x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x3.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8388608x4 : Shape := ⟨2, ![8388608, 4]⟩
abbrev S8388608 : Shape := ⟨1, ![8388608]⟩
abbrev S_ : Shape := ⟨0, ![]⟩
abbrev S8388608x1 : Shape := ⟨2, ![8388608, 1]⟩

abbrev nBuf : Space → Nat
  | .hbm => 86
  | .vmem => 0
  | .smem => 0
  | _ => 0

abbrev bufTy : (tb : Table) → Fin (tcTables nBuf tb) → BufTy
  | .hbm, ⟨0, _⟩ => ⟨S8388608x4, .f32⟩
  | .hbm, ⟨1, _⟩ => ⟨S8388608, .i32⟩
  | .hbm, ⟨2, _⟩ => ⟨S_, .f32⟩
  | .hbm, ⟨3, _⟩ => ⟨S8388608, .f32⟩
  | .hbm, ⟨4, _⟩ => ⟨S_, .f32⟩
  | .hbm, ⟨5, _⟩ => ⟨S8388608, .f32⟩
  | .hbm, ⟨6, _⟩ => ⟨S8388608, .f32⟩
  | .hbm, ⟨7, _⟩ => ⟨S8388608x1, .f32⟩
  | .hbm, ⟨8, _⟩ => ⟨S8388608x4, .f32⟩
  | .hbm, ⟨9, _⟩ => ⟨S8388608x4, .f32⟩
  | .hbm, ⟨10, _⟩ => ⟨S8388608x4, .f32⟩
  | .hbm, ⟨11, _⟩ => ⟨S_, .f32⟩
  | .hbm, ⟨12, _⟩ => ⟨S8388608, .f32⟩
  | .hbm, ⟨13, _⟩ => ⟨S8388608x1, .f32⟩
  | .hbm, ⟨14, _⟩ => ⟨S8388608x4, .f32⟩
  | .hbm, ⟨15, _⟩ => ⟨S8388608x4, .f32⟩
  | .hbm, ⟨16, _⟩ => ⟨S8388608x4, .f32⟩
  | .hbm, ⟨17, _⟩ => ⟨S_, .i32⟩
  | .hbm, ⟨18, _⟩ => ⟨S8388608, .i32⟩
  | .hbm, ⟨19, _⟩ => ⟨S8388608, .i1⟩
  | .hbm, ⟨20, _⟩ => ⟨S_, .i32⟩
  | .hbm, ⟨21, _⟩ => ⟨S8388608, .i32⟩
  | .hbm, ⟨22, _⟩ => ⟨S8388608, .i1⟩
  | .hbm, ⟨23, _⟩ => ⟨S_, .i32⟩
  | .hbm, ⟨24, _⟩ => ⟨S8388608, .i32⟩
  | .hbm, ⟨25, _⟩ => ⟨S8388608, .i1⟩
  | .hbm, ⟨26, _⟩ => ⟨S8388608, .i1⟩
  | .hbm, ⟨27, _⟩ => ⟨S8388608, .i1⟩
  | .hbm, ⟨28, _⟩ => ⟨S8388608, .i1⟩
  | .hbm, ⟨29, _⟩ => ⟨S8388608x1, .f32⟩
  | .hbm, ⟨30, _⟩ => ⟨S8388608, .f32⟩
  | .hbm, ⟨31, _⟩ => ⟨S_, .f32⟩
  | .hbm, ⟨32, _⟩ => ⟨S8388608, .f32⟩
  | .hbm, ⟨33, _⟩ => ⟨S8388608, .f32⟩
  | .hbm, ⟨34, _⟩ => ⟨S8388608, .f32⟩
  | .hbm, ⟨35, _⟩ => ⟨S_, .f32⟩
  | .hbm, ⟨36, _⟩ => ⟨S_, .f32⟩
  | .hbm, ⟨37, _⟩ => ⟨S8388608, .f32⟩
  | .hbm, ⟨38, _⟩ => ⟨S8388608, .f32⟩
  | .hbm, ⟨39, _⟩ => ⟨S_, .f32⟩
  | .hbm, ⟨40, _⟩ => ⟨S_, .f32⟩
  | .hbm, ⟨41, _⟩ => ⟨S8388608x1, .f32⟩
  | .hbm, ⟨42, _⟩ => ⟨S8388608, .f32⟩
  | .hbm, ⟨43, _⟩ => ⟨S8388608x1, .f32⟩
  | .hbm, ⟨44, _⟩ => ⟨S8388608, .f32⟩
  | .hbm, ⟨45, _⟩ => ⟨S8388608, .f32⟩
  | .hbm, ⟨46, _⟩ => ⟨S8388608x1, .f32⟩
  | .hbm, ⟨47, _⟩ => ⟨S8388608, .f32⟩
  | .hbm, ⟨48, _⟩ => ⟨S8388608, .f32⟩
  | .hbm, ⟨49, _⟩ => ⟨S8388608x1, .f32⟩
  | .hbm, ⟨50, _⟩ => ⟨S8388608, .f32⟩
  | .hbm, ⟨51, _⟩ => ⟨S8388608x1, .f32⟩
  | .hbm, ⟨52, _⟩ => ⟨S8388608, .f32⟩
  | .hbm, ⟨53, _⟩ => ⟨S8388608, .f32⟩
  | .hbm, ⟨54, _⟩ => ⟨S8388608x1, .f32⟩
  | .hbm, ⟨55, _⟩ => ⟨S8388608, .f32⟩
  | .hbm, ⟨56, _⟩ => ⟨S8388608x1, .f32⟩
  | .hbm, ⟨57, _⟩ => ⟨S8388608, .f32⟩
  | .hbm, ⟨58, _⟩ => ⟨S8388608, .f32⟩
  | .hbm, ⟨59, _⟩ => ⟨S8388608x1, .f32⟩
  | .hbm, ⟨60, _⟩ => ⟨S8388608, .f32⟩
  | .hbm, ⟨61, _⟩ => ⟨S8388608x1, .f32⟩
  | .hbm, ⟨62, _⟩ => ⟨S8388608, .f32⟩
  | .hbm, ⟨63, _⟩ => ⟨S8388608, .f32⟩
  | .hbm, ⟨64, _⟩ => ⟨S8388608, .f32⟩
  | .hbm, ⟨65, _⟩ => ⟨S8388608, .f32⟩
  | .hbm, ⟨66, _⟩ => ⟨S8388608, .f32⟩
  | .hbm, ⟨67, _⟩ => ⟨S_, .f32⟩
  | .hbm, ⟨68, _⟩ => ⟨S_, .f32⟩
  | .hbm, ⟨69, _⟩ => ⟨S8388608, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S8388608x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_7 : Ref sig .tc := ⟨.hbm, 67, rfl⟩
abbrev main_v54 : Ref sig .tc := ⟨.hbm, 68, rfl⟩
abbrev main_v55 : Ref sig .tc := ⟨.hbm, 69, rfl⟩
abbrev main_cst_8 : Ref sig .tc := ⟨.hbm, 70, rfl⟩
abbrev main_v56 : Ref sig .tc := ⟨.hbm, 71, rfl⟩
abbrev main_cst_9 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]

class Facts₀ : Prop where
  reducesTo_S8388608x4_S8388608_d1 : S8388608x4.ReducesTo [1] S8388608
  h_S_ : 0 < S_.numel
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S8388608x1_S8388608x4_0_1 : S8388608x1.BroadcastsInDim S8388608x4 (![0, 1] : Fin 2 → Fin S8388608x4.rank)
  slices_S8388608x4_S8388608x1_0_0 : S8388608x4.Slices ![0, 0] S8388608x1
  shapeCasts_S8388608x1_S8388608 : S8388608x1.ShapeCasts S8388608
  reducesTo_S8388608_S_d0 : S8388608.ReducesTo [0] S_
  slices_S8388608x4_S8388608x1_0_1 : S8388608x4.Slices ![0, 1] S8388608x1
  slices_S8388608x4_S8388608x1_0_2 : S8388608x4.Slices ![0, 2] S8388608x1
  slices_S8388608x4_S8388608x1_0_3 : S8388608x4.Slices ![0, 3] S8388608x1

variable [Facts₀]

class Facts : Prop extends Facts₀ where

variable [Facts]
-- ==== Proof.KernelPieces.lean ====
/-
  What each case of the kernel's body leaves in the output block, at any float instance.

  The output block is one [1, 3] row shared by every grid point.  The first point stores a row of zeros, reads it back,
  and stores zeros plus its three partial totals; every later point reads what the point before left and stores that
  plus its own partial totals.  Either way the block ends at the body's one stored value.
-/
import proofs.«174451_j6236292514430_2_alg».proof.Proof.Gen.KernelIdeal.Frame
import Idealize.ShloMosaic.Lib.Pipeline.Value
import Idealize.ShloMosaic.Lib.ValueIdx
import Idealize.ShloMosaic.Lib.Tactic

set_option maxRecDepth 16384

open scoped BigOperators

noncomputable section

open Idealize.ShloMosaic Idealize.ShloMosaic.TcCoe Idealize.SL.Sem Idealize.ShloMosaic.ValueIdx
open Idealize.ShloMosaic.Pipeline (Dat)

namespace Cert.KernelPieces

open Cert.KernelIdeal Cert.KernelIdeal.Gen

variable {F : FTy → Type} [FloatOps F]

theorem hz : (![0, 0] : Fin 2 → Nat) = fun _ => 0 := funext fun a => by fin_cases a <;> rfl

/-- A later point (not the first): the block, holding acc, ends at acc plus the point's partial totals — its one covering
    store's value, whose loads read the whole buffers. -/
theorem out_B (c : Dev nD) (i : grid0.Coords) (a1 : Memref sig .tc .vmem S8192x4 .f32) (h1 : a1.IsWhole)
    (a2 : Memref sig .tc .vmem S8192x1 .i32) (h2 : a2.IsWhole) (a3 : Memref sig .tc .vmem S1x3 .f32) (h3 : a3.IsWhole)
    (hc : ¬cond0_0 i) (x0 : Vec F S8192x4 .f32) (x1 : Vec F S8192x1 .i32) (acc : Vec F S1x3 .f32) :
    out0_B_2 c i a1 h1 a2 h2 a3 h3 hc x0 x1 acc = k0_pay1 (k0_pay5 x1) (k0_pay6 x0 x1) (k0_pay7 x0 x1) acc := by
  unfold out0_B_2
  rw [View.read_writes_eq_canon _ _ _ (cover0_B_2 c i a1 h1 a2 h2 a3 h3 hc x0 x1 acc)]
  unfold kernelRun0_B
  dsimp only
  sl_unfold_words
  rw [View.canon_unit_zero hz]
  simp only [View.readAt_eq_ld, h1.read_unread, h2.read_unread, h3.read_unread, View.ld_unit_zero (S := S8192x4) hz,
    View.ld_unit_zero (S := S8192x1) hz, View.ld_unit_zero (S := S1x3) hz]

/-- The first point: the block is set to zero, read back, and ends at zero plus the point's partial totals. -/
theorem out_A (c : Dev nD) (i : grid0.Coords) (a1 : Memref sig .tc .vmem S8192x4 .f32) (h1 : a1.IsWhole)
    (a2 : Memref sig .tc .vmem S8192x1 .i32) (h2 : a2.IsWhole) (a3 : Memref sig .tc .vmem S1x3 .f32) (h3 : a3.IsWhole)
    (hc : cond0_0 i) (x0 : Vec F S8192x4 .f32) (x1 : Vec F S8192x1 .i32) :
    out0_A_2 c i a1 h1 a2 h2 a3 h3 hc x0 x1
      = k0_pay1 (k0_pay5 x1) (k0_pay6 x0 x1) (k0_pay7 x0 x1) (k0_pay2 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x3) hz, View.readCov_unit_zero (S := S1x3) _ hz]
  simp only [View.readAt_eq_ld, h1.read_unread, h2.read_unread, View.ld_unit_zero (S := S8192x4) hz,
    View.ld_unit_zero (S := S8192x1) hz]

end Cert.KernelPieces

end
-- ==== Proof.RowLoss.lean ====
/-
  The loss both programs compute, as one function of the rows.

  A row is four logits x₀ … x₃ and a label t.  With M the largest logit, eₖ = exp (xₖ - M) and pₖ = eₖ / (e₀ + e₁ + e₂ + e₃)
  (the softmax probabilities), the row contributes

    fne  =  (p₀ - 1)²                       if t = 0, else 0
    fpe  =  p₁² + p₂² + p₃²                 if t = 0,
            p₂² + p₃²                       if t = 1,
            p₁² + p₃²                       if t = 2,
            p₂² + p₁²                       otherwise
    cnt  =  1                               if t = 0, else 0

  and the loss of the whole batch is  (2/3) · (Σ fpe / (3·n + 2·(B - n)))  +  2 · (Σ fne / n),  n = Σ cnt, B the batch
  size — every constant kept as the float pattern the programs spell, the same pattern on both sides, so none is ever
  evaluated.  Everything is read on the extended reals: subtraction, product and sum are theirs, the quotient and the
  exponential are the ideal instance's.
-/
import Idealize.ShloMosaic.PureOps.Ideal.Laws
import Idealize.ShloMosaic.Lib.ValueIdx

open scoped BigOperators

noncomputable section

namespace Cert.RowLoss

open Idealize.ShloMosaic

/-- The largest of a row's four logits, folded from -∞. -/
def rowMax (x : Fin 4 → EReal) : EReal :=
  (Finset.univ : Finset (Fin 4)).fold max (Ideal.ofBits .f32 0xFF800000#32) x

/-- exp (xₖ - M). -/
def expShift (x : Fin 4 → EReal) (k : Fin 4) : EReal := Ideal.exp (x k - rowMax x)

/-- The softmax probability of class k. -/
def prob (x : Fin 4 → EReal) (k : Fin 4) : EReal := Ideal.div (expShift x k) (∑ j : Fin 4, expShift x j)

/-- Its square. -/
def sq (x : Fin 4 → EReal) (k : Fin 4) : EReal := prob x k * prob x k

/-- The row's false-negative error: (p₀ - 1)² on a row labelled 0, zero elsewhere. -/
def fneRow (x : Fin 4 → EReal) (t : BitVec 32) : EReal :=
  Scalar.select (IntOp.cmpi .eq t 0#32)
    ((prob x 0 - Ideal.ofBits .f32 0x3F800000#32) * (prob x 0 - Ideal.ofBits .f32 0x3F800000#32))
    (Ideal.ofBits .f32 0x00000000#32)

/-- The row's false-positive error: the squared probabilities of the wrong classes its label penalizes. -/
def fpeRow (x : Fin 4 → EReal) (t : BitVec 32) : EReal :=
  Scalar.select (IntOp.cmpi .eq t 0#32) (sq x 1 + sq x 2 + sq x 3)
    (Scalar.select (IntOp.cmpi .eq t 1#32) (sq x 2 + sq x 3)
      (Scalar.select (IntOp.cmpi .eq t 2#32) (sq x 1 + sq x 3) (sq x 2 + sq x 1)))

/-- One on a row labelled 0, zero elsewhere: the comparison's bit read as a number. -/
def cntRow (t : BitVec 32) : EReal := (((IntOp.cmpi .eq t 0#32).toNat : ℝ) : EReal)

/-- The batch's loss from its three totals. -/
def loss (fne fpe cnt : EReal) : EReal :=
  Ideal.ofBits .f32 0x3F2AAAAB#32
      * Ideal.div fpe (Ideal.ofBits .f32 0x40400000#32 * cnt
          + Ideal.ofBits .f32 0x40000000#32 * (Ideal.ofBits .f32 0x4B000000#32 - cnt))
    + Ideal.ofBits .f32 0x40000000#32 * Ideal.div fne cnt

/-- The bit of a comparison read as a signed 32-bit integer after a zero extension is the bit read unsigned: both
    are 0 or 1. -/
theorem bit_signed_eq_unsigned (b : BitVec 1) : (((b.setWidth 32).toInt : ℝ) : EReal) = ((b.toNat : ℝ) : EReal) := by
  have h : b = 0#1 ∨ b = 1#1 := by
    rcases Nat.lt_or_ge b.toNat 1 with h | h
    · left; apply BitVec.eq_of_toNat_eq; simp; omega
    · right; apply BitVec.eq_of_toNat_eq; have := b.isLt; simp; omega
  rcases h with rfl | rfl <;> simp

end Cert.RowLoss

end
-- ==== Proof.LibColumns.lean ====
/-
  Column vectors read at an index: a length-`a` vector viewed as an `[a, 1]` column and back, and a column broadcast
  along the second axis. Each is the general "same row-major position" or "trailing coordinates" reading of the layout
  operation, with both indices written out by coordinates.
-/
import Idealize.ShloMosaic.Lib.ValueLayout

namespace Cert.LibColumns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.LibRowSums.lean ====
/-
  Row sums of a matrix and the layout operations around them, read at an index — general in the extents.

  A sum along axis 1 of an `[a, b]` matrix is, at row `r`, the sum over `k < b` of the entries `(r, k)`. A kernel takes
  it as a lane reduction (its accumulator the neutral zero, which the reading drops) and casts the `[a]` result to an
  `[a, 1]` column; a host program takes it as a reduce from an initial value and lays the result out as a column by a
  broadcast along axis 0. Beside them, the host's broadcasts of a vector to a one-row matrix and of a column across the
  columns, each read at an index with both indices written out by coordinates.
-/
import Idealize.ShloMosaic.Lib.ValueLayout
import Idealize.ShloMosaic.Lib.IdealHost
import Idealize.ShloMosaic.PureOps.Ideal.Laws
import proofs.«174451_j6236292514430_2_alg».proof.Proof.LibColumns

open scoped BigOperators

namespace Cert.LibRowSums

open Idealize.ShloMosaic Idealize.ShloMosaic.ValueIdx

section Layout
variable {α : Type}

/-- An `[a]` vector broadcast along axis 0 to an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A `[b]` vector broadcast along axis 1 to a `[1, b]` row reads, at `(u, k)`, the vector at `k`. -/
theorem broadcastInDim_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- An `[a, 1]` column broadcast across `b` columns reads, at `(p, c)`, the column's entry at `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    exact (if_pos rfl).symm

end Layout

/-- The source index a sum along axis 1 inserts over row `r` at coordinate `k` is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A KERNEL'S ROW SUM kept as a column: the lane reduction along axis 1 of an `[a, b]` matrix, cast from `[a]` to
    `[a, 1]`, reads at `(r, u)` the sum over `k < b` of the entries `(r, k)`. -/
theorem laneSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ src acc h hφ hacc) hc (ix2 r u)
      = ∑ k : Fin b, src (ix2 r k) := by
  rw [Cert.LibColumns.shapeCast_a_a1_apply]
  refine (Ideal.multiReduction_add_single src acc h hφ hacc (ix1 r)).trans ?_
  show (∑ k : Fin b, src (h.lift (ix1 r) k)) = _
  exact Finset.sum_congr rfl fun k _ => congrArg src (lift_row h r k)

/-- A HOST PROGRAM'S ROW SUM laid out as a column: the reduce with `add` along axis 1 from an initial value, broadcast
    along axis 0 to `[a, 1]`, reads at `(r, v)` the initial value plus the sum over `k < b` of the entries `(r, k)`. -/
theorem hostRowSum_apply {φ : FTy} {a b : ℕ} {u : Shape} (src : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩)
    (hb : (⟨1, ![a]⟩ : Shape).BroadcastsInDim ⟨2, ![a, 1]⟩ ![0]) (r : Fin a) (v : Fin 1) :
    broadcastInDim ⟨2, ![a, 1]⟩ ![0] hb (Host.reduceAdd (F := Ideal) src init h' hu) (ix2 r v)
      = init (Shape.Idx.first hu) + ∑ k : Fin b, src (ix2 r k) := by
  rw [broadcastInDim_a_a1_apply, hostReduceAdd_apply, Ideal.hostReduceAdd_single h' h]
  show _ + (∑ k : Fin b, src (h.lift (ix1 r) k)) = _
  exact congrArg _ (Finset.sum_congr rfl fun k _ => congrArg src (lift_row h r k))

end Cert.LibRowSums
-- ==== Proof.LibRowMax.lean ====
/-
  The largest entry of each row of an [a, b] matrix, read at an index — general in the extents.

  A kernel takes it as a lane reduction with the maximum along axis 1 and casts the [a] result to an [a, 1] column; a
  host program takes it as a reduce with a maximum body from an initial value.  Either way the entry at row r is the
  maximum folded over k < b of the entries (r, k), starting from the accumulator's, respectively the initial, value.
-/
import Idealize.ShloMosaic.Lib.ValueLayout
import Idealize.ShloMosaic.PureOps.Ideal.Laws
import proofs.«174451_j6236292514430_2_alg».proof.Proof.LibColumns
import proofs.«174451_j6236292514430_2_alg».proof.Proof.LibRowSums

namespace Cert.LibRowMax

open Idealize.ShloMosaic Idealize.ShloMosaic.ValueIdx

/-- A KERNEL'S ROW MAXIMUM kept as a column: the lane reduction with the maximum along axis 1 of an [a, b] matrix, cast
    from [a] to [a, 1], reads at (r, u) the maximum over k < b of the entries (r, k), folded from the accumulator. -/
theorem laneMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (hc : (⟨1, ![a]⟩ : Shape).ShapeCasts ⟨2, ![a, 1]⟩) (r : Fin a) (u : Fin 1) :
    shapeCast ⟨2, ![a, 1]⟩ (multiReduction .maximumf [1] ⟨1, ![a]⟩ src acc h hφ hacc) hc (ix2 r u)
      = (Finset.univ : Finset (Fin b)).fold max (Ideal.ofBits φ acc) (fun k => src (ix2 r k)) := by
  rw [Cert.LibColumns.shapeCast_a_a1_apply]
  refine (Ideal.multiReduction_maximumf_single src acc h hφ hacc (ix1 r)).trans ?_
  show (Finset.univ : Finset (Fin b)).fold max (Ideal.ofBits φ acc) (fun k => src (h.lift (ix1 r) k)) = _
  exact congrArg (fun f => Finset.fold max (Ideal.ofBits φ acc) f (Finset.univ : Finset (Fin b)))
    (funext fun k => congrArg src (Cert.LibRowSums.lift_row h r k))

/-- A HOST PROGRAM'S ROW MAXIMUM: the reduce with a maximum body along axis 1 from an initial value reads at r the
    maximum over k < b of the entries (r, k), folded from the initial value. -/
theorem hostRowMax_apply {φ : FTy} {a b : ℕ} {u : Shape} (src : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩) (r : Fin a) :
    Host.reduce FloatOps.maximumf src init h' hu (ix1 r)
      = (Finset.univ : Finset (Fin b)).fold max (init (Shape.Idx.first hu)) (fun k => src (ix2 r k)) := by
  rw [Host.reduce_eq_fold_single FloatOps.maximumf src init h' h hu]
  show (Finset.univ : Finset (Fin b)).fold max (init (Shape.Idx.first hu)) (fun k => src (h.lift (ix1 r) k)) = _
  exact congrArg (fun f => Finset.fold max (init (Shape.Idx.first hu)) f (Finset.univ : Finset (Fin b)))
    (funext fun k => congrArg src (Cert.LibRowSums.lift_row h r k))

end Cert.LibRowMax
-- ==== Proof.LibSoftmaxRows.lean ====
/-
  The softmax of each row of an [a, b] matrix, read at an entry — general in the extents, in a kernel's and in a host
  program's spelling.

  With M the row's largest entry (folded from a starting value z) the entry (r, c) of the softmax is

      exp (x r c - M)  /  Σ_k exp (x r k - M).

  A kernel spells it with two lane reductions along axis 1 (the maximum, then the sum of the exponentials), each cast
  to an [a, 1] column and spread back over the b columns.  A host program spells it with a reduce with a maximum body
  whose result it joins once more with a spread constant (that join is the identity when the constant is the least
  value), a reduce with an add body from an initial value, and two broadcasts for each: [a] to [a, 1] to [a, b].
-/
import Idealize.ShloMosaic.Lib.ValueLayout
import Idealize.ShloMosaic.Lib.IdealHost
import Idealize.ShloMosaic.PureOps.Ideal.Laws
import proofs.«174451_j6236292514430_2_alg».proof.Proof.LibColumns
import proofs.«174451_j6236292514430_2_alg».proof.Proof.LibRowSums
import proofs.«174451_j6236292514430_2_alg».proof.Proof.LibRowMax

open scoped BigOperators

noncomputable section

namespace Cert.LibSoftmaxRows

open Idealize.ShloMosaic Idealize.ShloMosaic.ValueIdx

/-- A row's largest entry, folded from z. -/
def rowMaxFrom {b : ℕ} (z : EReal) (row : Fin b → EReal) : EReal := (Finset.univ : Finset (Fin b)).fold max z row

/-- Entry c of a row's softmax: exp (x c - M) over the sum of the exp (x k - M), the sum started from s. -/
def rowProb {b : ℕ} (z s : EReal) (row : Fin b → EReal) (c : Fin b) : EReal :=
  Ideal.div (Ideal.exp (row c - rowMaxFrom z row)) (s + ∑ k : Fin b, Ideal.exp (row k - rowMaxFrom z row))

section Kernel
variable {φ : FTy} {a b : ℕ}

/-- A kernel's row maximum, kept as a column and spread back over the columns. -/
def kMax (x : FVec Ideal ⟨2, ![a, b]⟩ φ) (accM : BitVec φ.bits) (hr : (⟨2, ![a, b]⟩ : Shape).Reduces [1] ⟨1, ![a]⟩)
    (hφ : FKind.Formats φ) (hM : accM = FKind.maximumf.neutral φ hφ) (hc : (⟨1, ![a]⟩ : Shape).ShapeCasts ⟨2, ![a, 1]⟩)
    (hb : (⟨2, ![a, 1]⟩ : Shape).Broadcasts ⟨2, ![a, b]⟩) : FVec Ideal ⟨2, ![a, b]⟩ φ :=
  broadcastTo ⟨2, ![a, b]⟩ (shapeCast ⟨2, ![a, 1]⟩ (multiReduction .maximumf [1] ⟨1, ![a]⟩ x accM hr hφ hM) hc) hb

/-- A kernel's softmax over the rows. -/
def kSoftmax (x : FVec Ideal ⟨2, ![a, b]⟩ φ) (accM accS : BitVec φ.bits) (hr : (⟨2, ![a, b]⟩ : Shape).Reduces [1] ⟨1, ![a]⟩)
    (hφ : FKind.Formats φ) (hM : accM = FKind.maximumf.neutral φ hφ) (hS : accS = FKind.add.neutral φ hφ)
    (hc : (⟨1, ![a]⟩ : Shape).ShapeCasts ⟨2, ![a, 1]⟩) (hb : (⟨2, ![a, 1]⟩ : Shape).Broadcasts ⟨2, ![a, b]⟩) :
    FVec Ideal ⟨2, ![a, b]⟩ φ :=
  divf (exp (subf x (kMax x accM hr hφ hM hc hb)))
    (broadcastTo ⟨2, ![a, b]⟩ (shapeCast ⟨2, ![a, 1]⟩
      (multiReduction .add [1] ⟨1, ![a]⟩ (exp (subf x (kMax x accM hr hφ hM hc hb))) accS hr hφ hS) hc) hb)

theorem kMax_apply (x : FVec Ideal ⟨2, ![a, b]⟩ φ) (accM : BitVec φ.bits) (hr : (⟨2, ![a, b]⟩ : Shape).Reduces [1] ⟨1, ![a]⟩)
    (hφ : FKind.Formats φ) (hM : accM = FKind.maximumf.neutral φ hφ) (hc : (⟨1, ![a]⟩ : Shape).ShapeCasts ⟨2, ![a, 1]⟩)
    (hb : (⟨2, ![a, 1]⟩ : Shape).Broadcasts ⟨2, ![a, b]⟩) (r : Fin a) (c : Fin b) :
    kMax x accM hr hφ hM hc hb (ix2 r c) = rowMaxFrom (Ideal.ofBits φ accM) (fun k => x (ix2 r k)) := by
  unfold kMax
  rw [Cert.LibColumns.broadcastTo_a1_ab_apply, Cert.LibRowMax.laneMax_apply]
  rfl

/-- The kernel's softmax at (r, c): the sum's accumulator is the neutral zero, which the reading drops. -/
theorem kSoftmax_apply (x : FVec Ideal ⟨2, ![a, b]⟩ φ) (accM accS : BitVec φ.bits)
    (hr : (⟨2, ![a, b]⟩ : Shape).Reduces [1] ⟨1, ![a]⟩) (hφ : FKind.Formats φ) (hM : accM = FKind.maximumf.neutral φ hφ)
    (hS : accS = FKind.add.neutral φ hφ) (hc : (⟨1, ![a]⟩ : Shape).ShapeCasts ⟨2, ![a, 1]⟩)
    (hb : (⟨2, ![a, 1]⟩ : Shape).Broadcasts ⟨2, ![a, b]⟩) (r : Fin a) (c : Fin b) :
    kSoftmax x accM accS hr hφ hM hS hc hb (ix2 r c) = rowProb (Ideal.ofBits φ accM) 0 (fun k => x (ix2 r k)) c := by
  have hexp : ∀ c' : Fin b, exp (subf x (kMax x accM hr hφ hM hc hb)) (ix2 r c')
      = Ideal.exp (x (ix2 r c') - rowMaxFrom (Ideal.ofBits φ accM) (fun k => x (ix2 r k))) := fun c' => by
    show Ideal.exp (x (ix2 r c') - kMax x accM hr hφ hM hc hb (ix2 r c')) = _
    rw [kMax_apply]
  unfold kSoftmax rowProb
  show Ideal.div (exp (subf x (kMax x accM hr hφ hM hc hb)) (ix2 r c)) _ = _
  rw [hexp c, Cert.LibColumns.broadcastTo_a1_ab_apply, Cert.LibRowSums.laneSum_apply, zero_add]
  exact congrArg _ (Finset.sum_congr rfl fun k _ => hexp k)

end Kernel

section Host
variable {φ : FTy} {a b : ℕ}

/-- A host program's row maximum: the reduce, joined with a spread constant, laid out as a column and spread back. -/
def hMax (X : FVec Ideal ⟨2, ![a, b]⟩ φ) (initM cM : (⟨0, ![]⟩ : Shape).Idx → Ideal φ)
    (h' : (⟨2, ![a, b]⟩ : Shape).ReducesTo [1] ⟨1, ![a]⟩) (hu : 0 < (⟨0, ![]⟩ : Shape).numel)
    (hbs : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1]) : FVec Ideal ⟨2, ![a, b]⟩ φ :=
  broadcastInDim ⟨2, ![a, b]⟩ ![0, 1] hb2 (broadcastInDim ⟨2, ![a, 1]⟩ ![0] hb1
    (maximumf (broadcastInDim ⟨1, ![a]⟩ ![] hbs cM) (Host.reduce FloatOps.maximumf X initM h' hu)))

/-- A host program's softmax over the rows. -/
def hSoftmax (X : FVec Ideal ⟨2, ![a, b]⟩ φ) (initM cM initS : (⟨0, ![]⟩ : Shape).Idx → Ideal φ)
    (h' : (⟨2, ![a, b]⟩ : Shape).ReducesTo [1] ⟨1, ![a]⟩) (hu : 0 < (⟨0, ![]⟩ : Shape).numel)
    (hbs : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1]) : FVec Ideal ⟨2, ![a, b]⟩ φ :=
  Host.divf (Host.exp (subf X (hMax X initM cM h' hu hbs hb1 hb2)))
    (broadcastInDim ⟨2, ![a, b]⟩ ![0, 1] hb2 (broadcastInDim ⟨2, ![a, 1]⟩ ![0] hb1
      (Host.reduceAdd (Host.exp (subf X (hMax X initM cM h' hu hbs hb1 hb2))) initS h' hu)))

theorem hMax_apply (X : FVec Ideal ⟨2, ![a, b]⟩ φ) (initM cM : (⟨0, ![]⟩ : Shape).Idx → Ideal φ)
    (h' : (⟨2, ![a, b]⟩ : Shape).ReducesTo [1] ⟨1, ![a]⟩) (hu : 0 < (⟨0, ![]⟩ : Shape).numel)
    (hbs : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1])
    (h : (⟨2, ![a, b]⟩ : Shape).Reduces [1] ⟨1, ![a]⟩)
    (hbot : ∀ y : EReal, max (cM ix0) y = y) (r : Fin a) (c : Fin b) :
    hMax X initM cM h' hu hbs hb1 hb2 (ix2 r c)
      = rowMaxFrom (initM (Shape.Idx.first hu)) (fun k => X (ix2 r k)) := by
  unfold hMax
  rw [Cert.LibRowSums.broadcastInDim_a1_ab_apply, Cert.LibRowSums.broadcastInDim_a_a1_apply]
  show max (broadcastInDim ⟨1, ![a]⟩ ![] hbs cM (ix1 r)) (Host.reduce FloatOps.maximumf X initM h' hu (ix1 r)) = _
  rw [broadcastInDim_scalar_apply, Cert.LibRowMax.hostRowMax_apply X initM h' hu h r, hbot]
  rfl

/-- The host's softmax at (r, c). -/
theorem hSoftmax_apply (X : FVec Ideal ⟨2, ![a, b]⟩ φ) (initM cM initS : (⟨0, ![]⟩ : Shape).Idx → Ideal φ)
    (h' : (⟨2, ![a, b]⟩ : Shape).ReducesTo [1] ⟨1, ![a]⟩) (hu : 0 < (⟨0, ![]⟩ : Shape).numel)
    (hbs : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1])
    (h : (⟨2, ![a, b]⟩ : Shape).Reduces [1] ⟨1, ![a]⟩)
    (hbot : ∀ y : EReal, max (cM ix0) y = y) (r : Fin a) (c : Fin b) :
    hSoftmax X initM cM initS h' hu hbs hb1 hb2 (ix2 r c)
      = rowProb (initM (Shape.Idx.first hu)) (initS (Shape.Idx.first hu)) (fun k => X (ix2 r k)) c := by
  have hexp : ∀ c' : Fin b, Host.exp (subf X (hMax X initM cM h' hu hbs hb1 hb2)) (ix2 r c')
      = Ideal.exp (X (ix2 r c') - rowMaxFrom (initM (Shape.Idx.first hu)) (fun k => X (ix2 r k))) := fun c' => by
    show Ideal.exp (X (ix2 r c') - hMax X initM cM h' hu hbs hb1 hb2 (ix2 r c')) = _
    rw [hMax_apply X initM cM h' hu hbs hb1 hb2 h hbot]
  unfold hSoftmax rowProb
  show Ideal.div (Host.exp (subf X (hMax X initM cM h' hu hbs hb1 hb2)) (ix2 r c)) _ = _
  rw [hexp c, Cert.LibRowSums.broadcastInDim_a1_ab_apply, Cert.LibRowSums.hostRowSum_apply _ _ h' hu h hb1]
  exact congrArg _ (congrArg _ (Finset.sum_congr rfl fun k _ => hexp k))

end Host

end Cert.LibSoftmaxRows

end
-- ==== Proof.LibColumnSlice.lean ====
/-
  One column of an [a, b] matrix, read at an index — general in the extents.

  The unit-stride slice [0:a, c:c+1] is the [a, 1] column c; a kernel keeps it as a column, a host program casts it to an
  [a] vector.  Either way the entry at row r is the matrix's entry (r, c).
-/
import Idealize.ShloMosaic.Lib.ValueLayout
import proofs.«174451_j6236292514430_2_alg».proof.Proof.LibColumns

namespace Cert.LibColumnSlice

open Idealize.ShloMosaic Idealize.ShloMosaic.ValueIdx

variable {α : Type}

/-- The slice [0:a, c:c+1] of an [a, b] matrix reads, at (r, u), the entry (r, c). -/
theorem slice_col_apply {a b : ℕ} (c : ℕ) (hcb : c < b) (x : (⟨2, ![a, b]⟩ : Shape).Idx → α)
    (h : (⟨2, ![a, b]⟩ : Shape).Slices ![0, c] ⟨2, ![a, 1]⟩) (r : Fin a) (u : Fin 1) :
    extractStridedSlice ⟨2, ![a, 1]⟩ ![0, c] x h (ix2 r u) = x (ix2 r ⟨c, hcb⟩) :=
  extractStridedSlice_apply ![0, c] x h (ix2 r u) (ix2 r ⟨c, hcb⟩) fun ax => by
    match ax with
    | ⟨0, _⟩ => show r.val = 0 + r.val; omega
    | ⟨1, _⟩ => show c = c + u.val; omega

/-- The same column cast to an [a] vector reads, at r, the entry (r, c). -/
theorem col_vector_apply {a b : ℕ} (c : ℕ) (hcb : c < b) (x : (⟨2, ![a, b]⟩ : Shape).Idx → α)
    (h : (⟨2, ![a, b]⟩ : Shape).Slices ![0, c] ⟨2, ![a, 1]⟩) (hc : (⟨2, ![a, 1]⟩ : Shape).ShapeCasts ⟨1, ![a]⟩)
    (r : Fin a) :
    shapeCast ⟨1, ![a]⟩ (extractStridedSlice ⟨2, ![a, 1]⟩ ![0, c] x h) hc (ix1 r) = x (ix2 r ⟨c, hcb⟩) := by
  rw [Cert.LibColumns.shapeCast_a1_a_apply, slice_col_apply c hcb]

end Cert.LibColumnSlice
-- ==== Proof.LibColSums.lean ====
/-
  Column sums of a matrix read at an index — general in the extents.

  A sum along axis 0 of an [a, b] matrix is, at column q, the sum over k < a of the entries (k, q).  A kernel takes it as
  a reduction along the rows (its accumulator the neutral zero, which the reading drops) and casts the [b] result to a
  [1, b] row.
-/
import Idealize.ShloMosaic.Lib.ValueLayout
import Idealize.ShloMosaic.PureOps.Ideal.Laws

open scoped BigOperators

namespace Cert.LibColSums

open Idealize.ShloMosaic Idealize.ShloMosaic.ValueIdx

/-- The source index a sum along axis 0 inserts over column q at coordinate k is (k, q). -/
theorem lift_col {a b : ℕ} (h : (⟨2, ![a, b]⟩ : Shape).Reduces [0] ⟨1, ![b]⟩) (q : Fin b) (k : Fin a) :
    h.lift (ix1 q) k = ix2 k q := by
  funext c
  apply Fin.ext
  match c with
  | ⟨0, _⟩ => rfl
  | ⟨1, _⟩ => rfl

/-- A KERNEL'S COLUMN SUM kept as a row: the reduction along axis 0 of an [a, b] matrix, cast from [b] to [1, b],
    reads at (u, q) the sum over k < a of the entries (k, q). -/
theorem sublaneSum_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (hc : (⟨1, ![b]⟩ : Shape).ShapeCasts ⟨2, ![1, b]⟩) (u : Fin 1) (q : Fin b) :
    shapeCast ⟨2, ![1, b]⟩ (multiReduction .add [0] ⟨1, ![b]⟩ src acc h hφ hacc) hc (ix2 u q)
      = ∑ k : Fin a, src (ix2 k q) := by
  rw [shapeCast_a_1a_apply]
  refine (Ideal.multiReduction_add_single src acc h hφ hacc (ix1 q)).trans ?_
  show (∑ k : Fin a, src (h.lift (ix1 q) k)) = _
  exact Finset.sum_congr rfl fun k _ => congrArg src (lift_col h q k)

end Cert.LibColSums
-- ==== Proof.KernelRows.lean ====
/-
  What one grid point's body computes, read at an entry.

  The body loads an [8192, 4] block of logits x and the [8192, 1] block of labels t of the same rows.  Its three partial
  totals — the block's sums over its 8192 rows of the row errors fne, fpe and of the count of rows labelled 0 — are laid
  side by side as a [1, 3] row and added onto the running [1, 3] total the output block carries from point to point.
-/
import proofs.«174451_j6236292514430_2_alg».proof.Proof.Gen.KernelIdeal.Skeleton
import proofs.«174451_j6236292514430_2_alg».proof.Proof.RowLoss
import proofs.«174451_j6236292514430_2_alg».proof.Proof.LibSoftmaxRows
import proofs.«174451_j6236292514430_2_alg».proof.Proof.LibColumnSlice
import proofs.«174451_j6236292514430_2_alg».proof.Proof.LibColSums

open scoped BigOperators

noncomputable section

namespace Cert.KernelRows

open Idealize.ShloMosaic Idealize.ShloMosaic.ValueIdx Cert.KernelIdeal Cert.KernelIdeal.Gen

/-- The general softmax entry, folded from -∞ and summed from 0, is this loss's probability. -/
theorem rowProb_eq_prob (row : Fin 4 → EReal) (c : Fin 4) :
    Cert.LibSoftmaxRows.rowProb (Ideal.ofBits .f32 0xFF800000#32) 0 row c = Cert.RowLoss.prob row c := by
  unfold Cert.LibSoftmaxRows.rowProb Cert.RowLoss.prob Cert.RowLoss.expShift Cert.RowLoss.rowMax
    Cert.LibSoftmaxRows.rowMaxFrom
  rw [zero_add]

/-- The block of probabilities: entry (r, c) is the softmax probability of class c in row r of the block. -/
theorem probs_apply (x : Vec Ideal S8192x4 .f32) (r : Fin 8192) (c : Fin 4) :
    k0_pay4 (F := Ideal) x (ix2 r c) = Cert.RowLoss.prob (fun k => x (ix2 r k)) c :=
  (Cert.LibSoftmaxRows.kSoftmax_apply (φ := .f32) x 0xFF800000#32 0x00000000#32 reduces_S8192x4_S8192 (.inl rfl) rfl rfl
      shapeCasts_S8192_S8192x1 broadcasts_S8192x1_S8192x4 r c).trans (rowProb_eq_prob _ c)

/-- The labels pass through a cast to their own shape unchanged. -/
theorem labels_eq (t : Vec Ideal S8192x1 .i32) : k0_pay3 (F := Ideal) t = t := shapeCast_self t _

/-- The mask of rows labelled 0. -/
theorem isOthers_apply (t : Vec Ideal S8192x1 .i32) (i : S8192x1.Idx) :
    k0_pay5 (F := Ideal) t i = IntOp.cmpi .eq (t i) 0#32 := by
  unfold k0_pay5
  rw [labels_eq]
  rfl

/-- The block's false-negative total: the sum over its rows of the row error. -/
theorem fneBlock_apply (x : Vec Ideal S8192x4 .f32) (t : Vec Ideal S8192x1 .i32) :
    k0_pay6 (F := Ideal) x t (ix2 (0 : Fin 1) (0 : Fin 1))
      = ∑ r : Fin 8192, Cert.RowLoss.fneRow (fun k => x (ix2 r k)) (t (ix2 r (0 : Fin 1))) := by
  unfold k0_pay6
  dsimp only
  refine (Cert.LibColSums.sublaneSum_apply _ _ _ _ _ _ (0 : Fin 1) (0 : Fin 1)).trans ?_
  refine Finset.sum_congr rfl fun r _ => ?_
  show Scalar.select (k0_pay5 (F := Ideal) t (ix2 r (0 : Fin 1)))
      ((extractStridedSlice S8192x1 ![0, 0] (k0_pay4 (F := Ideal) x) slices_S8192x4_o0_0_S8192x1 (ix2 r (0 : Fin 1))
          - Ideal.ofBits .f32 0x3F800000#32)
        * (extractStridedSlice S8192x1 ![0, 0] (k0_pay4 (F := Ideal) x) slices_S8192x4_o0_0_S8192x1 (ix2 r (0 : Fin 1))
          - Ideal.ofBits .f32 0x3F800000#32))
      (Ideal.ofBits .f32 0x00000000#32) = _
  rw [isOthers_apply, Cert.LibColumnSlice.slice_col_apply 0 (by decide), probs_apply]
  rfl

/-- The block's false-positive total. -/
theorem fpeBlock_apply (x : Vec Ideal S8192x4 .f32) (t : Vec Ideal S8192x1 .i32) :
    k0_pay7 (F := Ideal) x t (ix2 (0 : Fin 1) (0 : Fin 1))
      = ∑ r : Fin 8192, Cert.RowLoss.fpeRow (fun k => x (ix2 r k)) (t (ix2 r (0 : Fin 1))) := by
  unfold k0_pay7
  dsimp only
  refine (Cert.LibColSums.sublaneSum_apply _ _ _ _ _ _ (0 : Fin 1) (0 : Fin 1)).trans ?_
  refine Finset.sum_congr rfl fun r _ => ?_
  have sqc : ∀ (c : ℕ) (hc : c < 4) (h : S8192x4.Slices ![0, c] S8192x1),
      extractStridedSlice S8192x1 ![0, c] (mulf (k0_pay4 (F := Ideal) x) (k0_pay4 (F := Ideal) x)) h (ix2 r (0 : Fin 1))
        = Cert.RowLoss.sq (fun k => x (ix2 r k)) ⟨c, hc⟩ := fun c hc h => by
    rw [Cert.LibColumnSlice.slice_col_apply c hc]
    show k0_pay4 (F := Ideal) x (ix2 r ⟨c, hc⟩) * k0_pay4 (F := Ideal) x (ix2 r ⟨c, hc⟩) = _
    rw [probs_apply]
    rfl
  show Scalar.select (k0_pay5 (F := Ideal) t (ix2 r (0 : Fin 1)))
      (extractStridedSlice S8192x1 ![0, 1] (mulf (k0_pay4 (F := Ideal) x) (k0_pay4 (F := Ideal) x)) slices_S8192x4_o0_1_S8192x1 (ix2 r (0 : Fin 1))
        + extractStridedSlice S8192x1 ![0, 2] (mulf (k0_pay4 (F := Ideal) x) (k0_pay4 (F := Ideal) x)) slices_S8192x4_o0_2_S8192x1 (ix2 r (0 : Fin 1))
        + extractStridedSlice S8192x1 ![0, 3] (mulf (k0_pay4 (F := Ideal) x) (k0_pay4 (F := Ideal) x)) slices_S8192x4_o0_3_S8192x1 (ix2 r (0 : Fin 1)))
      (Scalar.select (IntOp.cmpi .eq (k0_pay3 (F := Ideal) t (ix2 r (0 : Fin 1))) 1#32)
        (extractStridedSlice S8192x1 ![0, 2] (mulf (k0_pay4 (F := Ideal) x) (k0_pay4 (F := Ideal) x)) slices_S8192x4_o0_2_S8192x1 (ix2 r (0 : Fin 1))
          + extractStridedSlice S8192x1 ![0, 3] (mulf (k0_pay4 (F := Ideal) x) (k0_pay4 (F := Ideal) x)) slices_S8192x4_o0_3_S8192x1 (ix2 r (0 : Fin 1)))
        (Scalar.select (IntOp.cmpi .eq (k0_pay3 (F := Ideal) t (ix2 r (0 : Fin 1))) 2#32)
          (extractStridedSlice S8192x1 ![0, 1] (mulf (k0_pay4 (F := Ideal) x) (k0_pay4 (F := Ideal) x)) slices_S8192x4_o0_1_S8192x1 (ix2 r (0 : Fin 1))
            + extractStridedSlice S8192x1 ![0, 3] (mulf (k0_pay4 (F := Ideal) x) (k0_pay4 (F := Ideal) x)) slices_S8192x4_o0_3_S8192x1 (ix2 r (0 : Fin 1)))
          (extractStridedSlice S8192x1 ![0, 2] (mulf (k0_pay4 (F := Ideal) x) (k0_pay4 (F := Ideal) x)) slices_S8192x4_o0_2_S8192x1 (ix2 r (0 : Fin 1))
            + extractStridedSlice S8192x1 ![0, 1] (mulf (k0_pay4 (F := Ideal) x) (k0_pay4 (F := Ideal) x)) slices_S8192x4_o0_1_S8192x1 (ix2 r (0 : Fin 1)))))
      = _
  rw [isOthers_apply, labels_eq, sqc 1 (by decide), sqc 2 (by decide), sqc 3 (by decide)]
  rfl

/-- The block's count of rows labelled 0: the mask's bit, widened and read as a signed integer, summed. -/
theorem cntBlock_apply (m : IVec S8192x1 1) :
    shapeCast S1x1 (multiReduction (F := Ideal) .add [0] S1 (sitofp .f32 (extui 32 m natLt_1_32)) 0x00000000#32
        reduces_S8192x1_S1 (.inl rfl) rfl) shapeCasts_S1_S1x1 (ix2 (0 : Fin 1) (0 : Fin 1))
      = ∑ r : Fin 8192, (((m (ix2 r (0 : Fin 1))).toNat : ℝ) : EReal) := by
  refine (Cert.LibColSums.sublaneSum_apply _ _ _ _ _ _ (0 : Fin 1) (0 : Fin 1)).trans ?_
  refine Finset.sum_congr rfl fun r _ => ?_
  exact Cert.RowLoss.bit_signed_eq_unsigned (m (ix2 r (0 : Fin 1)))

/-- Three [1, 1] pieces laid side by side as a [1, 3] row: entry j is piece j's one entry. -/
theorem row3_apply (p0 p1 p2 : FVec Ideal S1x1 .f32) :
    concatenate S1x3 1 [⟨S1x1, p0⟩, ⟨S1x1, p1⟩, ⟨S1x1, p2⟩] concatenates_S1x1_S1x1_S1x1_S1x3_d1 (ix2 (0 : Fin 1) (0 : Fin 3))
        = p0 (ix2 (0 : Fin 1) (0 : Fin 1))
    ∧ concatenate S1x3 1 [⟨S1x1, p0⟩, ⟨S1x1, p1⟩, ⟨S1x1, p2⟩] concatenates_S1x1_S1x1_S1x1_S1x3_d1 (ix2 (0 : Fin 1) (1 : Fin 3))
        = p1 (ix2 (0 : Fin 1) (0 : Fin 1))
    ∧ concatenate S1x3 1 [⟨S1x1, p0⟩, ⟨S1x1, p1⟩, ⟨S1x1, p2⟩] concatenates_S1x1_S1x1_S1x1_S1x3_d1 (ix2 (0 : Fin 1) (2 : Fin 3))
        = p2 (ix2 (0 : Fin 1) (0 : Fin 1)) := by
  refine ⟨?_, ?_, ?_⟩
  · exact concatenate_apply_piece (t := S1x3) (1 : Fin S1x3.rank) [⟨S1x1, p0⟩, ⟨S1x1, p1⟩, ⟨S1x1, p2⟩] concatenates_S1x1_S1x1_S1x1_S1x3_d1 _ 0 (by show (0 : ℕ) < 3; omega) S1x1 p0 rfl rfl 0 rfl (ix2 (0 : Fin 1) (0 : Fin 1))
      (fun b hb => by match b with | ⟨0, _⟩ => rfl | ⟨1, _⟩ => exact absurd rfl hb) rfl
  · exact concatenate_apply_piece (t := S1x3) (1 : Fin S1x3.rank) [⟨S1x1, p0⟩, ⟨S1x1, p1⟩, ⟨S1x1, p2⟩] concatenates_S1x1_S1x1_S1x1_S1x3_d1 _ 1 (by show (1 : ℕ) < 3; omega) S1x1 p1 rfl rfl 1 rfl (ix2 (0 : Fin 1) (0 : Fin 1))
      (fun b hb => by match b with | ⟨0, _⟩ => rfl | ⟨1, _⟩ => exact absurd rfl hb) rfl
  · exact concatenate_apply_piece (t := S1x3) (1 : Fin S1x3.rank) [⟨S1x1, p0⟩, ⟨S1x1, p1⟩, ⟨S1x1, p2⟩] concatenates_S1x1_S1x1_S1x1_S1x3_d1 _ 2 (by show (2 : ℕ) < 3; omega) S1x1 p2 rfl rfl 2 rfl (ix2 (0 : Fin 1) (0 : Fin 1))
      (fun b hb => by match b with | ⟨0, _⟩ => rfl | ⟨1, _⟩ => exact absurd rfl hb) rfl

/-- The three partial totals of one block, as a function of the column of the [1, 3] row. -/
def partials (x : Vec Ideal S8192x4 .f32) (t : Vec Ideal S8192x1 .i32) (j : Fin 3) : EReal :=
  if j.val = 0 then ∑ r : Fin 8192, Cert.RowLoss.fneRow (fun k => x (ix2 r k)) (t (ix2 r (0 : Fin 1)))
  else if j.val = 1 then ∑ r : Fin 8192, Cert.RowLoss.fpeRow (fun k => x (ix2 r k)) (t (ix2 r (0 : Fin 1)))
  else ∑ r : Fin 8192, Cert.RowLoss.cntRow (t (ix2 r (0 : Fin 1)))

theorem partials_zero (x : Vec Ideal S8192x4 .f32) (t : Vec Ideal S8192x1 .i32) (h : 0 < 3) :
    partials x t ⟨0, h⟩ = ∑ r : Fin 8192, Cert.RowLoss.fneRow (fun k => x (ix2 r k)) (t (ix2 r (0 : Fin 1))) :=
  if_pos rfl
theorem partials_one (x : Vec Ideal S8192x4 .f32) (t : Vec Ideal S8192x1 .i32) (h : 1 < 3) :
    partials x t ⟨1, h⟩ = ∑ r : Fin 8192, Cert.RowLoss.fpeRow (fun k => x (ix2 r k)) (t (ix2 r (0 : Fin 1))) :=
  (if_neg (by show ¬(1 : ℕ) = 0; omega)).trans (if_pos rfl)
theorem partials_two (x : Vec Ideal S8192x4 .f32) (t : Vec Ideal S8192x1 .i32) (h : 2 < 3) :
    partials x t ⟨2, h⟩ = ∑ r : Fin 8192, Cert.RowLoss.cntRow (t (ix2 r (0 : Fin 1))) :=
  (if_neg (by show ¬(2 : ℕ) = 0; omega)).trans (if_neg (by show ¬(2 : ℕ) = 1; omega))

/-- The count read off the mask is the count read off the labels. -/
theorem cnt_of_mask (t : Vec Ideal S8192x1 .i32) :
    ∑ r : Fin 8192, (((k0_pay5 (F := Ideal) t (ix2 r (0 : Fin 1))).toNat : ℝ) : EReal)
      = ∑ r : Fin 8192, Cert.RowLoss.cntRow (t (ix2 r (0 : Fin 1))) :=
  Finset.sum_congr rfl fun r _ => by rw [isOthers_apply]; rfl

/-- What the body stores: the running total it found, plus the block's three partial totals, column by column. -/
theorem stored_apply (x : Vec Ideal S8192x4 .f32) (t : Vec Ideal S8192x1 .i32) (acc : Vec Ideal S1x3 .f32) (j : Fin 3) :
    k0_pay1 (F := Ideal) (k0_pay5 (F := Ideal) t) (k0_pay6 (F := Ideal) x t) (k0_pay7 (F := Ideal) x t) acc
        (ix2 (0 : Fin 1) j)
      = acc (ix2 (0 : Fin 1) j) + partials x t j := by
  unfold k0_pay1
  dsimp only
  rw [shapeCast_self]
  refine congrArg (fun z => acc (ix2 (0 : Fin 1) j) + z) ?_
  match j with
  | ⟨0, _⟩ => exact ((row3_apply _ _ _).1).trans ((fneBlock_apply x t).trans (partials_zero x t _).symm)
  | ⟨1, _⟩ => exact ((row3_apply _ _ _).2.1).trans ((fpeBlock_apply x t).trans (partials_one x t _).symm)
  | ⟨2, _⟩ => exact ((row3_apply _ _ _).2.2).trans ((cntBlock_apply _).trans ((cnt_of_mask t).trans (partials_two x t _).symm))
  | ⟨_ + 3, h⟩ => exact absurd h (Nat.not_lt.2 (Nat.le_add_left _ _))

end Cert.KernelRows

end
-- ==== Proof.KernelTotals.lean ====
/-
  The running total the output block carries from point to point, and the result array.

  After point n the [1, 3] block holds, in column j, the sum of the partial totals of points 0 … n: the first point
  starts from the zeros it stored, every later one from what the point before left.  The block is written back once,
  after the last point, and it is the whole result array.
-/
import proofs.«174451_j6236292514430_2_alg».proof.Proof.Gen.KernelIdeal.Frame
import proofs.«174451_j6236292514430_2_alg».proof.Proof.KernelPieces
import proofs.«174451_j6236292514430_2_alg».proof.Proof.KernelRows
import Idealize.ShloMosaic.Lib.Pipeline.Value
import Idealize.ShloMosaic.Lib.Tactic

set_option maxRecDepth 16384

open scoped BigOperators

noncomputable section

open Idealize.ShloMosaic Idealize.ShloMosaic.TcCoe Idealize.SL.Sem Idealize.ShloMosaic.ValueIdx
open Idealize.ShloMosaic.Pipeline (Dat)

namespace Cert.KernelTotals

open Cert.KernelIdeal Cert.KernelIdeal.Gen

variable (m : (ℓ : Loc nD τ sig) → Buf (Elt Ideal) ℓ)

/-- The row of zeros the first point stores is zero in every column. -/
theorem zeros_apply (j : Fin 3) : k0_pay2 (F := Ideal) (ix2 (0 : Fin 1) j) = 0 :=
  Ideal.ofBits_zero_f32

/-- Point k's three partial totals (zero past the grid, where no point is). -/
def blockPart (c : Dev nD) (k : ℕ) (j : Fin 3) : EReal :=
  if h : k < cfg0.N then Cert.KernelRows.partials (iblk m c 0 ⟨k, h⟩) (iblk m c 1 ⟨k, h⟩) j else 0

theorem blockPart_of_lt (c : Dev nD) (k : ℕ) (j : Fin 3) (h : k < cfg0.N) :
    blockPart m c k j = Cert.KernelRows.partials (iblk m c 0 ⟨k, h⟩) (iblk m c 1 ⟨k, h⟩) j := dif_pos h

/-- After point n the output block holds, in column j, the sum of the partial totals of points 0 … n: by induction on
    the point. -/
theorem outsAt_eq (c : Dev nD) : ∀ (n : ℕ) (h : n < cfg0.N) (j : Fin 3),
    (outsAt0 m c n h : Vec Ideal S1x3 .f32) (ix2 (0 : Fin 1) j) = ∑ k ∈ Finset.range (n + 1), blockPart m c k j
  | 0, h, j => by
    refine (congrFun ((outsAt0_A m c ⟨0, h⟩ rfl).trans (Cert.KernelPieces.out_A c _ _ _ _ _ _ _ _ _ _))
      (ix2 (0 : Fin 1) j)).trans ?_
    refine (Cert.KernelRows.stored_apply (iblk m c 0 ⟨0, h⟩) (iblk m c 1 ⟨0, h⟩) (k0_pay2 (F := Ideal)) j).trans ?_
    rw [Finset.sum_range_one, blockPart_of_lt m c 0 j h, zeros_apply, zero_add]
  | n + 1, h, j => by
    have hN : cfg0.N = 1024 := N_0
    have hB : ¬(⟨n + 1, h⟩ : Fin cfg0.N).val % 1024 = 0 := by dsimp only; omega
    refine (congrFun ((outsAt0_B m c ⟨n + 1, h⟩ hB).trans (Cert.KernelPieces.out_B c _ _ _ _ _ _ _ _ _ _ _))
      (ix2 (0 : Fin 1) j)).trans ?_
    refine (Cert.KernelRows.stored_apply (iblk m c 0 ⟨n + 1, h⟩) (iblk m c 1 ⟨n + 1, h⟩) _ j).trans ?_
    rw [Finset.sum_range_succ _ (n + 1), blockPart_of_lt m c (n + 1) j h]
    refine congrArg (fun z => z + Cert.KernelRows.partials (iblk m c 0 ⟨n + 1, h⟩) (iblk m c 1 ⟨n + 1, h⟩) j) ?_
    exact outsAt_eq c n _ j

theorem last_lt : 1023 < cfg0.N := lt_of_lt_of_eq (by decide) N_0.symm

/-- The last point. -/
abbrev tlast : Fin cfg0.N := ⟨1023, last_lt⟩

/-- The block after the last point, as contents of the result array (its one block IS the array). -/
abbrev result (c : Dev nD) : Buf (Elt Ideal) ((c : Thread nD τ).loc main_v1) := outsAt0 m c 1023 last_lt

/-- Column j of the result: the sum of the partial totals of all 1024 points. -/
theorem result_apply (c : Dev nD) (j : Fin 3) :
    (result m c : Vec Ideal S1x3 .f32) (ix2 (0 : Fin 1) j) = ∑ k ∈ Finset.range 1024, blockPart m c k j :=
  outsAt_eq m c 1023 last_lt j

/-- Window 2's block index is (0, 0) at the last point. -/
theorem idx_out_last : (fun a => win0_2.index tlast a * main_v1.ty.shape.size a) = fun _ => 0 :=
  funext fun a => by fin_cases a <;> decide +kernel

/-- Block (0, 0) of the [1, 3] array, read at zero offsets, is the array — whatever it holds. -/
theorem cut_eq_read (c : Dev nD) (G : Buf (Elt Ideal) ((c : Thread nD τ).loc main_v1)) :
    (cfg0.win 2).cut (grid0.coords tlast) G = ((cfg0.win 2).blk tlast).view.read (Elt Ideal) G :=
  (Memref.read_access_unit_zero (Elt Ideal) main_v1 idx_out_last
    (fun a => by rw [congrFun idx_out_last a]; simp) G).symm

/-- The one write-back, after the last point, writes the block the last point left. -/
theorem flushed_eq (c : Dev nD) (t : Fin cfg0.N) (hf : (cfg0.win 2).flush t = true) :
    (dats m 0 c).flushed 2 t = ((cfg0.win 2).blk t).view.read (Elt Ideal) (result m c) := by
  have hN : cfg0.N = 1024 := N_0
  have h3 : t.val = 1023 := by have := (flush0_2 t).mp hf; have := t.isLt; omega
  obtain rfl : t = tlast := Fin.ext h3
  show (cfg0.win 2).cut (grid0.coords tlast) ((dats m 0 c).after 2 tlast) = _
  rw [after0_2]
  exact cut_eq_read c _

/-- So the result array ends holding the block after the last point. -/
theorem final_o (c : Dev nD) : (dats m 0 c).arrAt 2 cfg0.N = result m c :=
  (dats m 0 c).arrAt_eq_of_cover 2 (result m c) (flushed_eq m c) fun i =>
    ⟨tlast, (flush0_2 tlast).mpr rfl, by
      show i ∈ ((View.whole main_v1).slice (win0_2.rect tlast)).set
      rw [View.set_slice_whole, Rect.mem_set_unit]
      intro a
      have h0 : (i 0 : Nat) < 1 := (i 0).isLt
      have h1 : (i 1 : Nat) < 3 := (i 1).isLt
      match a with
      | ⟨0, _⟩ =>
        show win0_2.index tlast 0 * win0_2.size 0 ≤ (i 0 : Nat) ∧ (i 0 : Nat) < win0_2.index tlast 0 * win0_2.size 0 + win0_2.xsize (grid0.coords tlast) 0
        rw [show win0_2.index tlast 0 * win0_2.size 0 = 0 from by decide +kernel, show win0_2.xsize (grid0.coords tlast) 0 = 1 from by decide +kernel]; omega
      | ⟨1, _⟩ =>
        show win0_2.index tlast 1 * win0_2.size 1 ≤ (i 1 : Nat) ∧ (i 1 : Nat) < win0_2.index tlast 1 * win0_2.size 1 + win0_2.xsize (grid0.coords tlast) 1
        rw [show win0_2.index tlast 1 * win0_2.size 1 = 0 from by decide +kernel, show win0_2.xsize (grid0.coords tlast) 1 = 3 from by decide +kernel]; omega⟩

end Cert.KernelTotals

end
-- ==== Proof.KernelLoads.lean ====
/-
  The blocks a grid point loads, as rows of the argument arrays.

  Point p's block of logits is rows 8192·p … 8192·p + 8191 of the [8388608, 4] logits, and its block of labels the same
  rows of the labels, which reach the call as an [8388608, 1] column (the host's reshape of the label vector).
-/
import proofs.«174451_j6236292514430_2_alg».proof.Proof.Gen.KernelIdeal.Frame
import proofs.«174451_j6236292514430_2_alg».proof.Proof.LibColumns
import Idealize.ShloMosaic.Lib.Pipeline.Value
import Idealize.ShloMosaic.Lib.StableHlo.Run
import Idealize.ShloMosaic.Lib.Tactic

set_option maxRecDepth 16384

open scoped BigOperators

noncomputable section

open Idealize.ShloMosaic Idealize.ShloMosaic.TcCoe Idealize.SL.Sem Idealize.ShloMosaic.ValueIdx
open Idealize.ShloMosaic.Pipeline (Dat)

namespace Cert.KernelLoads

open Cert.KernelIdeal Cert.KernelIdeal.Gen

variable (m : (ℓ : Loc nD τ sig) → Buf (Elt Ideal) ℓ)

/-- The block indices, decided once over the grid: point p's blocks are block p along the rows. -/
theorem idx_logits : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_labels : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Row r of point t's block of logits is row 8192·t + r of the logits. -/
theorem xblk_apply (c : Dev nD) (t : Fin cfg0.N) (r : Fin 8192) (k : Fin 4) (hR : 8192 * t.val + r.val < 8388608) :
    (iblk m c 0 t : Vec Ideal S8192x4 .f32) (ix2 r k)
      = m ((c : Thread nD τ).loc main_arg0) (ix2 (⟨8192 * t.val + r.val, hR⟩ : Fin 8388608) k) := by
  unfold iblk
  rw [View.read_apply]
  show V m c main_arg0 _ = _
  rw [V_main_arg0]
  refine congrArg _ (funext fun a => Fin.ext ?_)
  match a with
  | ⟨0, _⟩ =>
    show win0_0.index t 0 * 8192 + 1 * r.val = 8192 * t.val + r.val
    rw [(idx_logits t).1]; omega
  | ⟨1, _⟩ =>
    show win0_0.index t 1 * 4 + 1 * k.val = k.val
    rw [(idx_logits t).2]; omega

/-- The labels reach the call as an [8388608, 1] column: the host's reshape of the label vector. -/
theorem V_labels (c : Dev nD) :
    (V m c main_v0 : S8388608x1.Idx → Elt Ideal .i32)
      = shapeCast S8388608x1 (m ((c : Thread nD τ).loc main_arg1)) shapeCasts_S8388608_S8388608x1 := by
  show StableHlo.after hostOps0 (fun b => m (c, b)) (Proc.devRef .tc main_v0) = _
  after_results
  rfl

/-- Row r of point t's block of labels is label 8192·t + r. -/
theorem tblk_apply (c : Dev nD) (t : Fin cfg0.N) (r : Fin 8192) (hR : 8192 * t.val + r.val < 8388608) :
    (iblk m c 1 t : Vec Ideal S8192x1 .i32) (ix2 r (0 : Fin 1))
      = m ((c : Thread nD τ).loc main_arg1) (ix1 (⟨8192 * t.val + r.val, hR⟩ : Fin 8388608)) := by
  unfold iblk
  rw [View.read_apply]
  show V m c main_v0 _ = _
  rw [V_labels]
  refine shapeCast_apply _ _ _ (ix1 (⟨8192 * t.val + r.val, hR⟩ : Fin 8388608)) ?_
  rw [Shape.rowMajor_val_two, Shape.rowMajor_val_one]
  show 8192 * t.val + r.val = (win0_1.index t 0 * 8192 + 1 * r.val) * 1 + (win0_1.index t 1 * 1 + 1 * 0)
  rw [(idx_labels t).1, (idx_labels t).2]; omega

end Cert.KernelLoads

end
-- ==== Proof.BatchLoss.lean ====
/-
  The loss of a whole batch of n rows, as one function of the logits and the labels: the three totals over the rows,
  combined.  Both programs end at this value.
-/
import proofs.«174451_j6236292514430_2_alg».proof.Proof.RowLoss

open scoped BigOperators

noncomputable section

namespace Cert.BatchLoss

open Idealize.ShloMosaic

/-- The batch's loss from its rows. -/
def total {n : ℕ} (X : Fin n → Fin 4 → EReal) (T : Fin n → BitVec 32) : EReal :=
  Cert.RowLoss.loss (∑ R : Fin n, Cert.RowLoss.fneRow (X R) (T R)) (∑ R : Fin n, Cert.RowLoss.fpeRow (X R) (T R))
    (∑ R : Fin n, Cert.RowLoss.cntRow (T R))

/-- The pattern of -∞ is the least extended real: joining with it changes nothing. -/
theorem negInf_max (y : EReal) : max (Ideal.ofBits .f32 0xFF800000#32) y = y := by
  simp [Ideal.ofBits, Ideal.ieee]

end Cert.BatchLoss

end
-- ==== Proof.LibBlockSum.lean ====
/-
  Sums over an index range cut into equal blocks, and the running sum a blocked accumulation builds: general facts
  about finite sums in an additive commutative monoid, stated for Fin (a * b) against Fin a × Fin b.
-/
import Mathlib.Algebra.BigOperators.Fin
import Mathlib.Logic.Equiv.Fin.Basic
import Mathlib.Tactic.Ring
import Mathlib.Tactic.Linarith

namespace LibBlockSum

open Finset

/-- A sum over a * b indices is the sum over a blocks of the sums over the b indices of each block; index
    b·p + q is entry q of block p. -/
theorem sum_blocks {M : Type*} [AddCommMonoid M] (a b : ℕ) (f : Fin (a * b) → M) :
    ∑ j, f j = ∑ p : Fin a, ∑ q : Fin b, f ⟨b * p.val + q.val, by
      have hp := p.isLt; have hq := q.isLt
      calc b * p.val + q.val < b * p.val + b := by omega
        _ = b * (p.val + 1) := by ring
        _ ≤ b * a := Nat.mul_le_mul_left b hp
        _ = a * b := Nat.mul_comm b a⟩ := by
  rw [← Equiv.sum_comp (finProdFinEquiv : Fin a × Fin b ≃ Fin (a * b)) f, Fintype.sum_prod_type]
  refine sum_congr rfl fun p _ => sum_congr rfl fun q _ => congrArg f (Fin.ext ?_)
  simp only [finProdFinEquiv_apply_val]
  ring

/-- An accumulator that starts from its first term and adds one term per step holds, after step n, the sum of the
    terms up to n. -/
theorem acc_eq_sum {M : Type*} [AddCommMonoid M] (g : ℕ → M) (acc : ℕ → M) (h0 : acc 0 = g 0)
    (hs : ∀ n, acc (n + 1) = acc n + g (n + 1)) (n : ℕ) : acc n = ∑ k ∈ range (n + 1), g k := by
  induction n with
  | zero => simp [h0]
  | succ n ih => rw [hs, ih, sum_range_succ _ (n + 1)]

end LibBlockSum
-- ==== Proof.LibScalarEntry.lean ====
/-
  One entry of a [1, n] row taken out as a scalar — general in n.

  A host program reads entry j of a one-row matrix by the slice [0:1, j:j+1], a [1, 1] matrix, cast to rank 0.  At its
  one index the result is the row's entry (0, j).
-/
import Idealize.ShloMosaic.Lib.ValueLayout

namespace Cert.LibScalarEntry

open Idealize.ShloMosaic Idealize.ShloMosaic.ValueIdx

variable {α : Type}

/-- The slice [0:1, j:j+1] of a [1, n] row, cast to a scalar, is the row's entry (0, j). -/
theorem entry_scalar_apply {n : ℕ} (j : ℕ) (hj : j < n) (x : (⟨2, ![1, n]⟩ : Shape).Idx → α)
    (h : (⟨2, ![1, n]⟩ : Shape).Slices ![0, j] ⟨2, ![1, 1]⟩) (hc : (⟨2, ![1, 1]⟩ : Shape).ShapeCasts ⟨0, ![]⟩)
    (i : (⟨0, ![]⟩ : Shape).Idx) :
    shapeCast ⟨0, ![]⟩ (extractStridedSlice ⟨2, ![1, 1]⟩ ![0, j] x h) hc i = x (ix2 (0 : Fin 1) ⟨j, hj⟩) := by
  refine (shapeCast_apply _ hc i (ix2 (0 : Fin 1) (0 : Fin 1)) ?_).trans ?_
  · have h1 : ((⟨2, ![1, 1]⟩ : Shape).rowMajor (ix2 (0 : Fin 1) (0 : Fin 1))).val < 1 :=
      lt_of_lt_of_eq ((⟨2, ![1, 1]⟩ : Shape).rowMajor (ix2 (0 : Fin 1) (0 : Fin 1))).isLt (by decide)
    have h2 : ((⟨0, ![]⟩ : Shape).rowMajor i).val < 1 :=
      lt_of_lt_of_eq ((⟨0, ![]⟩ : Shape).rowMajor i).isLt (by decide)
    omega
  · exact extractStridedSlice_apply ![0, j] x h (ix2 (0 : Fin 1) (0 : Fin 1)) (ix2 (0 : Fin 1) ⟨j, hj⟩) fun ax => by
      match ax with
      | ⟨0, _⟩ => rfl
      | ⟨1, _⟩ => show j = j + 0; omega

end Cert.LibScalarEntry
-- ==== Proof.KernelTail.lean ====
/-
  The kernel program's result.

  Point p's partial totals are sums over rows 8192·p … 8192·p + 8191 of the argument arrays, so the sum over the 1024
  points is the sum over all 8388608 rows, cut into 1024 blocks of 8192.  The host lines after the call take the three
  entries of the result array out as scalars and combine them: the program ends at the batch's loss.
-/
import proofs.«174451_j6236292514430_2_alg».proof.Proof.Gen.KernelIdeal.Frame
import proofs.«174451_j6236292514430_2_alg».proof.Proof.KernelTotals
import proofs.«174451_j6236292514430_2_alg».proof.Proof.KernelLoads
import proofs.«174451_j6236292514430_2_alg».proof.Proof.BatchLoss
import proofs.«174451_j6236292514430_2_alg».proof.Proof.LibBlockSum
import proofs.«174451_j6236292514430_2_alg».proof.Proof.LibScalarEntry
import Idealize.ShloMosaic.Lib.Pipeline.Value
import Idealize.ShloMosaic.Lib.StableHlo.Run
import Idealize.ShloMosaic.Lib.Tactic

set_option maxRecDepth 16384

open scoped BigOperators

noncomputable section

open Idealize.ShloMosaic Idealize.ShloMosaic.TcCoe Idealize.SL.Sem Idealize.ShloMosaic.ValueIdx
open Idealize.ShloMosaic.Pipeline (Dat)

namespace Cert.KernelTail

open Cert.KernelIdeal Cert.KernelIdeal.Gen Cert.KernelTotals

variable (m : (ℓ : Loc nD τ sig) → Buf (Elt Ideal) ℓ) (ρ : Dev nD → PrngReg)

/-- The logits and the labels, row by row. -/
def logits (c : Dev nD) (R : Fin 8388608) (k : Fin 4) : EReal := m ((c : Thread nD τ).loc main_arg0) (ix2 R k)
def labels (c : Dev nD) (R : Fin 8388608) : BitVec 32 := m ((c : Thread nD τ).loc main_arg1) (ix1 R)

theorem rowBound (p : Fin 1024) (q : Fin 8192) : 8192 * p.val + q.val < 8388608 := by omega

theorem point_lt (p : Fin 1024) : p.val < cfg0.N := lt_of_lt_of_eq p.isLt N_0.symm

/-! ## A point's partial totals are sums over its rows of the argument arrays -/

theorem blockPart_fne (c : Dev nD) (p : Fin 1024) (h : 0 < 3) :
    blockPart m c p.val ⟨0, h⟩
      = ∑ q : Fin 8192, Cert.RowLoss.fneRow (logits m c ⟨8192 * p.val + q.val, rowBound p q⟩)
          (labels m c ⟨8192 * p.val + q.val, rowBound p q⟩) := by
  rw [blockPart_of_lt m c p.val _ (point_lt p), Cert.KernelRows.partials_zero]
  refine Finset.sum_congr rfl fun q _ => ?_
  exact congr (congrArg Cert.RowLoss.fneRow
      (funext fun k => Cert.KernelLoads.xblk_apply m c ⟨p.val, point_lt p⟩ q k (rowBound p q)))
    (Cert.KernelLoads.tblk_apply m c ⟨p.val, point_lt p⟩ q (rowBound p q))

theorem blockPart_fpe (c : Dev nD) (p : Fin 1024) (h : 1 < 3) :
    blockPart m c p.val ⟨1, h⟩
      = ∑ q : Fin 8192, Cert.RowLoss.fpeRow (logits m c ⟨8192 * p.val + q.val, rowBound p q⟩)
          (labels m c ⟨8192 * p.val + q.val, rowBound p q⟩) := by
  rw [blockPart_of_lt m c p.val _ (point_lt p), Cert.KernelRows.partials_one]
  refine Finset.sum_congr rfl fun q _ => ?_
  exact congr (congrArg Cert.RowLoss.fpeRow
      (funext fun k => Cert.KernelLoads.xblk_apply m c ⟨p.val, point_lt p⟩ q k (rowBound p q)))
    (Cert.KernelLoads.tblk_apply m c ⟨p.val, point_lt p⟩ q (rowBound p q))

theorem blockPart_cnt (c : Dev nD) (p : Fin 1024) (h : 2 < 3) :
    blockPart m c p.val ⟨2, h⟩
      = ∑ q : Fin 8192, Cert.RowLoss.cntRow (labels m c ⟨8192 * p.val + q.val, rowBound p q⟩) := by
  rw [blockPart_of_lt m c p.val _ (point_lt p), Cert.KernelRows.partials_two]
  refine Finset.sum_congr rfl fun q _ => ?_
  exact congrArg Cert.RowLoss.cntRow (Cert.KernelLoads.tblk_apply m c ⟨p.val, point_lt p⟩ q (rowBound p q))

/-! ## The three entries of the result array are the batch's three totals -/

theorem fne_total (c : Dev nD) (h : 0 < 3) :
    (result m c : Vec Ideal S1x3 .f32) (ix2 (0 : Fin 1) ⟨0, h⟩)
      = ∑ R : Fin 8388608, Cert.RowLoss.fneRow (logits m c R) (labels m c R) := by
  refine (result_apply m c _).trans ?_
  refine (Finset.sum_range fun k => blockPart m c k ⟨0, h⟩).trans ?_
  refine Eq.trans ?_ (LibBlockSum.sum_blocks 1024 8192
    (fun R : Fin 8388608 => Cert.RowLoss.fneRow (logits m c R) (labels m c R))).symm
  exact Finset.sum_congr rfl fun p _ => blockPart_fne m c p h

theorem fpe_total (c : Dev nD) (h : 1 < 3) :
    (result m c : Vec Ideal S1x3 .f32) (ix2 (0 : Fin 1) ⟨1, h⟩)
      = ∑ R : Fin 8388608, Cert.RowLoss.fpeRow (logits m c R) (labels m c R) := by
  refine (result_apply m c _).trans ?_
  refine (Finset.sum_range fun k => blockPart m c k ⟨1, h⟩).trans ?_
  refine Eq.trans ?_ (LibBlockSum.sum_blocks 1024 8192
    (fun R : Fin 8388608 => Cert.RowLoss.fpeRow (logits m c R) (labels m c R))).symm
  exact Finset.sum_congr rfl fun p _ => blockPart_fpe m c p h

theorem cnt_total (c : Dev nD) (h : 2 < 3) :
    (result m c : Vec Ideal S1x3 .f32) (ix2 (0 : Fin 1) ⟨2, h⟩)
      = ∑ R : Fin 8388608, Cert.RowLoss.cntRow (labels m c R) := by
  refine (result_apply m c _).trans ?_
  refine (Finset.sum_range fun k => blockPart m c k ⟨2, h⟩).trans ?_
  refine Eq.trans ?_ (LibBlockSum.sum_blocks 1024 8192
    (fun R : Fin 8388608 => Cert.RowLoss.cntRow (labels m c R))).symm
  exact Finset.sum_congr rfl fun p _ => blockPart_cnt m c p h

/-! ## The host lines after the call -/

set_option maxHeartbeats 4000000 in
/-- The twenty host lines after the call, from any contents of the buffers: with G what the result array holds, the
    program's result is the loss of G's three entries — each taken out by a slice and a cast to a scalar. -/
theorem tail_generic (W : Valuation τ sig (Elt Ideal)) (G : Vec Ideal S1x3 .f32) (hG : W (Proc.devRef .tc main_v1) = G) :
    StableHlo.after (hostOps1 (F := Ideal)) W (Proc.devRef .tc main_v16)
      = fun _ => Cert.RowLoss.loss (G (ix2 (0 : Fin 1) ⟨0, by decide⟩)) (G (ix2 (0 : Fin 1) ⟨1, by decide⟩))
          (G (ix2 (0 : Fin 1) ⟨2, by decide⟩)) := by
  subst hG
  after_results_simp
  funext i
  show Cert.RowLoss.loss
      (shapeCast S_ (extractStridedSlice S1x1 ![0, 0] (W (Proc.devRef .tc main_v1)) slices_S1x3_S1x1_0_0) shapeCasts_S1x1_S_ i)
      (shapeCast S_ (extractStridedSlice S1x1 ![0, 1] (W (Proc.devRef .tc main_v1)) slices_S1x3_S1x1_0_1) shapeCasts_S1x1_S_ i)
      (shapeCast S_ (extractStridedSlice S1x1 ![0, 2] (W (Proc.devRef .tc main_v1)) slices_S1x3_S1x1_0_2) shapeCasts_S1x1_S_ i)
    = _
  exact congr (congr (congrArg Cert.RowLoss.loss
      (Cert.LibScalarEntry.entry_scalar_apply 0 (by decide) _ _ _ i))
      (Cert.LibScalarEntry.entry_scalar_apply 1 (by decide) _ _ _ i))
      (Cert.LibScalarEntry.entry_scalar_apply 2 (by decide) _ _ _ i)

/-- The program's result: the loss of the three entries of the result array the call left. -/
theorem tail_eq (c : Dev nD) :
    Pipeline.afterTail₀ cfgs (dats m) 0 (V0 m) [hostOps1] c main_v16
      = fun _ => Cert.RowLoss.loss ((result m c : Vec Ideal S1x3 .f32) (ix2 (0 : Fin 1) ⟨0, by decide⟩))
          ((result m c : Vec Ideal S1x3 .f32) (ix2 (0 : Fin 1) ⟨1, by decide⟩))
          ((result m c : Vec Ideal S1x3 .f32) (ix2 (0 : Fin 1) ⟨2, by decide⟩)) := by
  unfold Pipeline.afterTail₀
  show StableHlo.after hostOps1 _ (Proc.devRef .tc main_v16) = _
  exact tail_generic _ (result m c)
    ((Pipeline.withArrays_arr spec0 launch0.win.arr_inj c _ _ 2).trans (final_o m c))

/-- The program's result is the batch's loss of the argument arrays. -/
theorem value (c : Dev nD) :
    Pipeline.afterTail₀ cfgs (dats m) 0 (V0 m) [hostOps1] c main_v16
      = fun _ => Cert.BatchLoss.total (logits m c) (labels m c) := by
  refine (tail_eq m c).trans (funext fun _ => ?_)
  rw [fne_total m c, fpe_total m c, cnt_total m c]
  rfl

/-! ## The run -/

/-- Every weakly fair execution of the kernel program terminates with its result at the batch's loss of the argument
    arrays, the arguments unchanged: the generated frame run, its post read at the result and at the arguments. -/
theorem run : θ_run defs (onTc (τ := τ) (main (F := Ideal))) ⟨m, fun _ => 0, ρ⟩ fun r => ∀ c : Dev nD,
      r.2.mem ((c.tc : Thread nD τ).loc main_v16) = (fun _ => Cert.BatchLoss.total (logits m c) (labels m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v16 (Pipeline.mem_restRefs_of main_v16 (by decide) (by decide))).trans (value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelTail

end
-- ==== Proof.ReferenceRows.lean ====
/-
  The reference program's stages, read at a row: its softmax is the row's probabilities, its three masked vectors are
  the rows' errors and the count.
-/
import proofs.«174451_j6236292514430_2_alg».proof.Proof.Gen.ReferenceIdeal.Read
import proofs.«174451_j6236292514430_2_alg».proof.Proof.BatchLoss
import proofs.«174451_j6236292514430_2_alg».proof.Proof.LibSoftmaxRows
import proofs.«174451_j6236292514430_2_alg».proof.Proof.LibColumnSlice

open scoped BigOperators

noncomputable section

namespace Cert.ReferenceRows

open Idealize.ShloMosaic Idealize.ShloMosaic.ValueIdx Cert.ReferenceIdeal Cert.ReferenceIdeal.Gen Cert.ReferenceIdeal.Read

variable (X : (⟨S8388608x4, .f32⟩ : BufTy).Contents (Elt Ideal)) (T : (⟨S8388608, .i32⟩ : BufTy).Contents (Elt Ideal))

/-- The general softmax entry, folded from -∞ and summed from the zero pattern, is this loss's probability. -/
theorem rowProb_eq_prob (row : Fin 4 → EReal) (c : Fin 4) :
    Cert.LibSoftmaxRows.rowProb (Ideal.ofBits .f32 0xFF800000#32) (Ideal.ofBits .f32 0x00000000#32) row c
      = Cert.RowLoss.prob row c := by
  unfold Cert.LibSoftmaxRows.rowProb Cert.RowLoss.prob Cert.RowLoss.expShift Cert.RowLoss.rowMax
    Cert.LibSoftmaxRows.rowMaxFrom
  rw [Ideal.ofBits_zero_f32, zero_add]

/-- The softmax stage at (R, c): the probability of class c in row R. -/
theorem probs_apply (R : Fin 8388608) (c : Fin 4) :
    val_main_v10 (F := Ideal) X (ix2 R c) = Cert.RowLoss.prob (fun k => X (ix2 R k)) c :=
  (Cert.LibSoftmaxRows.hSoftmax_apply (φ := .f32) X (val_main_cst (F := Ideal)) (val_main_cst_0 (F := Ideal))
      (val_main_cst_1 (F := Ideal)) reducesTo_S8388608x4_S8388608_d1 h_S_ bcast_S_S8388608 bcast_S8388608_S8388608x1_0
      bcast_S8388608x1_S8388608x4_0_1 (by decide) Cert.BatchLoss.negInf_max R c).trans (rowProb_eq_prob _ c)

/-- Column c of the squared probabilities, as the vector the program casts it to, at row R. -/
theorem sqCol_apply (R : Fin 8388608) (c : ℕ) (hc : c < 4) (h : S8388608x4.Slices ![0, c] S8388608x1) :
    shapeCast S8388608 (extractStridedSlice S8388608x1 ![0, c] (val_main_v11 (F := Ideal) X) h) shapeCasts_S8388608x1_S8388608 (ix1 R)
      = Cert.RowLoss.sq (fun k => X (ix2 R k)) ⟨c, hc⟩ := by
  refine (Cert.LibColumnSlice.col_vector_apply c hc (val_main_v11 (F := Ideal) X) h shapeCasts_S8388608x1_S8388608 R).trans ?_
  rw [val_main_v11_apply, probs_apply, Ideal.mulf_def]
  unfold Cert.RowLoss.sq
  rfl

/-- Column 0 of the probabilities, as a vector, at row R. -/
theorem p0_apply (R : Fin 8388608) :
    val_main_v22 (F := Ideal) X (ix1 R) = Cert.RowLoss.prob (fun k => X (ix2 R k)) 0 := by
  unfold val_main_v22 val_main_v21
  exact (Cert.LibColumnSlice.col_vector_apply 0 (by decide) (val_main_v10 (F := Ideal) X) slices_S8388608x4_S8388608x1_0_0
    shapeCasts_S8388608x1_S8388608 R).trans (probs_apply X R 0)

/-- The three label masks at row R: the label compared with 0, 1 and 2. -/
theorem is0_apply (R : Fin 8388608) : val_main_v13 (F := Ideal) T (ix1 R) = IntOp.cmpi .eq (T (ix1 R)) 0#32 := by
  rw [val_main_v13_apply, val_main_v12_apply, val_main_c_apply]
theorem is1_apply (R : Fin 8388608) : val_main_v15 (F := Ideal) T (ix1 R) = IntOp.cmpi .eq (T (ix1 R)) 1#32 := by
  rw [val_main_v15_apply, val_main_v14_apply, val_main_c_2_apply]
theorem is2_apply (R : Fin 8388608) : val_main_v17 (F := Ideal) T (ix1 R) = IntOp.cmpi .eq (T (ix1 R)) 2#32 := by
  rw [val_main_v17_apply, val_main_v16_apply, val_main_c_3_apply]

/-- The false-negative vector at row R. -/
theorem fne_apply (R : Fin 8388608) :
    val_main_v26 (F := Ideal) X T (ix1 R) = Cert.RowLoss.fneRow (fun k => X (ix2 R k)) (T (ix1 R)) := by
  rw [val_main_v26_apply, is0_apply, val_main_v25_apply, val_main_v24_apply, p0_apply, val_main_v23_apply,
    val_main_cst_4_apply, val_main_call0_v1_apply, val_main_call0_v0_apply, val_main_cst_5_apply, Ideal.mulf_def,
    Ideal.subf_def, Ideal.ofBits_def, Ideal.ofBits_def]
  unfold Cert.RowLoss.fneRow
  rfl

/-- The false-positive vector at row R. -/
theorem fpe_apply (R : Fin 8388608) :
    val_main_v53 (F := Ideal) X T (ix1 R) = Cert.RowLoss.fpeRow (fun k => X (ix2 R k)) (T (ix1 R)) := by
  have h29 : val_main_v29 (F := Ideal) X (ix1 R) = Cert.RowLoss.sq (fun k => X (ix2 R k)) 1 := by
    unfold val_main_v29 val_main_v28; exact sqCol_apply X R 1 (by decide) _
  have h31 : val_main_v31 (F := Ideal) X (ix1 R) = Cert.RowLoss.sq (fun k => X (ix2 R k)) 2 := by
    unfold val_main_v31 val_main_v30; exact sqCol_apply X R 2 (by decide) _
  have h34 : val_main_v34 (F := Ideal) X (ix1 R) = Cert.RowLoss.sq (fun k => X (ix2 R k)) 3 := by
    unfold val_main_v34 val_main_v33; exact sqCol_apply X R 3 (by decide) _
  have h37 : val_main_v37 (F := Ideal) X (ix1 R) = Cert.RowLoss.sq (fun k => X (ix2 R k)) 2 := by
    unfold val_main_v37 val_main_v36; exact sqCol_apply X R 2 (by decide) _
  have h39 : val_main_v39 (F := Ideal) X (ix1 R) = Cert.RowLoss.sq (fun k => X (ix2 R k)) 3 := by
    unfold val_main_v39 val_main_v38; exact sqCol_apply X R 3 (by decide) _
  have h42 : val_main_v42 (F := Ideal) X (ix1 R) = Cert.RowLoss.sq (fun k => X (ix2 R k)) 1 := by
    unfold val_main_v42 val_main_v41; exact sqCol_apply X R 1 (by decide) _
  have h44 : val_main_v44 (F := Ideal) X (ix1 R) = Cert.RowLoss.sq (fun k => X (ix2 R k)) 3 := by
    unfold val_main_v44 val_main_v43; exact sqCol_apply X R 3 (by decide) _
  have h47 : val_main_v47 (F := Ideal) X (ix1 R) = Cert.RowLoss.sq (fun k => X (ix2 R k)) 2 := by
    unfold val_main_v47 val_main_v46; exact sqCol_apply X R 2 (by decide) _
  have h49 : val_main_v49 (F := Ideal) X (ix1 R) = Cert.RowLoss.sq (fun k => X (ix2 R k)) 1 := by
    unfold val_main_v49 val_main_v48; exact sqCol_apply X R 1 (by decide) _
  rw [val_main_v53_apply, is0_apply, val_main_v35_apply, val_main_v32_apply, h29, h31, h34,
    val_main_v52_apply, is1_apply, val_main_v40_apply, h37, h39,
    val_main_v51_apply, is2_apply, val_main_v45_apply, h42, h44, val_main_v50_apply, h47, h49]
  simp only [Ideal.addf_def]
  unfold Cert.RowLoss.fpeRow
  rfl

/-- The count vector at row R: the comparison's bit read as a number. -/
theorem cnt_apply (R : Fin 8388608) :
    val_main_v55 (F := Ideal) T (ix1 R) = Cert.RowLoss.cntRow (T (ix1 R)) := by
  rw [val_main_v55_apply, is0_apply]
  rfl

end Cert.ReferenceRows

end
-- ==== Proof.LibIndexSums.lean ====
/-
  Sums over the index set of a rank-1 shape: the index set of [n] is Fin n, so a sum over it is the sum over the one
  coordinate.
-/
import Idealize.ShloMosaic.Lib.ValueIdx

open scoped BigOperators

namespace Cert.LibIndexSums

open Idealize.ShloMosaic Idealize.ShloMosaic.ValueIdx

/-- A rank-1 index set is its one coordinate's range … -/
def idxEquiv1 {n : ℕ} : (⟨1, ![n]⟩ : Shape).Idx ≃ Fin n where
  toFun i := i 0
  invFun r := ix1 r
  left_inv i := (eq_ix1 i).symm
  right_inv _ := rfl

/-- … so a sum over it is the sum over that coordinate. -/
theorem sum_idx1 {M : Type*} [AddCommMonoid M] {n : ℕ} (f : (⟨1, ![n]⟩ : Shape).Idx → M) :
    ∑ i, f i = ∑ r : Fin n, f (ix1 r) := by
  rw [← Equiv.sum_comp (idxEquiv1 (n := n)).symm f]
  rfl

end Cert.LibIndexSums
-- ==== Proof.ReferenceTotal.lean ====
/-
  The reference program's result: its three sums run over all the rows at once, each from a zero initial value, so they
  are the three totals of the batch, and the scalar lines after them are the loss.
-/
import proofs.«174451_j6236292514430_2_alg».proof.Proof.ReferenceRows
import proofs.«174451_j6236292514430_2_alg».proof.Proof.LibIndexSums

open scoped BigOperators

noncomputable section

namespace Cert.ReferenceTotal

open Idealize.ShloMosaic Idealize.ShloMosaic.ValueIdx Cert.ReferenceIdeal Cert.ReferenceIdeal.Gen Cert.ReferenceIdeal.Read

variable (X : (⟨S8388608x4, .f32⟩ : BufTy).Contents (Elt Ideal)) (T : (⟨S8388608, .i32⟩ : BufTy).Contents (Elt Ideal))

/-- The false-negative total. -/
theorem fne_total (i : S_.Idx) :
    val_main_v27 (F := Ideal) X T i
      = ∑ R : Fin 8388608, Cert.RowLoss.fneRow (fun k => X (ix2 R k)) (T (ix1 R)) := by
  rw [val_main_v27_apply, Cert.LibIndexSums.sum_idx1, val_main_cst_6_apply]
  rw [Ideal.ofBits_def, Ideal.ofBits_zero_f32, zero_add]
  exact Finset.sum_congr rfl fun R _ => Cert.ReferenceRows.fne_apply X T R

/-- The false-positive total. -/
theorem fpe_total (i : S_.Idx) :
    val_main_v54 (F := Ideal) X T i
      = ∑ R : Fin 8388608, Cert.RowLoss.fpeRow (fun k => X (ix2 R k)) (T (ix1 R)) := by
  rw [val_main_v54_apply, Cert.LibIndexSums.sum_idx1, val_main_cst_7_apply]
  rw [Ideal.ofBits_def, Ideal.ofBits_zero_f32, zero_add]
  exact Finset.sum_congr rfl fun R _ => Cert.ReferenceRows.fpe_apply X T R

/-- The count of rows labelled 0. -/
theorem cnt_total (i : S_.Idx) :
    val_main_v56 (F := Ideal) T i = ∑ R : Fin 8388608, Cert.RowLoss.cntRow (T (ix1 R)) := by
  rw [val_main_v56_apply, Cert.LibIndexSums.sum_idx1, val_main_cst_8_apply]
  rw [Ideal.ofBits_def, Ideal.ofBits_zero_f32, zero_add]
  exact Finset.sum_congr rfl fun R _ => Cert.ReferenceRows.cnt_apply T R

/-- The scalar lines after the sums are the loss of the three totals. -/
theorem tail_eq (i : S_.Idx) :
    val_main_v65 (F := Ideal) X T i
      = Cert.RowLoss.loss (val_main_v27 (F := Ideal) X T i) (val_main_v54 (F := Ideal) X T i) (val_main_v56 (F := Ideal) T i) := by
  rw [val_main_v65_apply, val_main_v62_apply, val_main_v64_apply, val_main_v61_apply, val_main_v63_apply, val_main_v60_apply,
    val_main_v57_apply, val_main_v59_apply, val_main_v58_apply, val_main_cst_12_apply, val_main_cst_13_apply,
    val_main_cst_9_apply, val_main_cst_10_apply, val_main_cst_11_apply]
  generalize val_main_v27 (F := Ideal) X T i = a
  generalize val_main_v54 (F := Ideal) X T i = b
  generalize val_main_v56 (F := Ideal) T i = n
  rfl

/-- The reference's result: the batch's loss of the argument arrays. -/
theorem result_eq (i : S_.Idx) :
    val_main_v65 (F := Ideal) X T i
      = Cert.BatchLoss.total (fun (R : Fin 8388608) k => X (ix2 R k)) (fun R => T (ix1 R)) := by
  rw [tail_eq, fne_total, fpe_total, cnt_total]
  unfold Cert.BatchLoss.total
  rfl

end Cert.ReferenceTotal

end
-- ==== Proof.lean ====
/-
  The kernel and its reference compute one loss of a batch of 8388608 rows (four logits and a label each).

  Per row, with p the softmax of the logits: fne = (p₀ - 1)² on a row labelled 0 (else 0); fpe = the squared probabilities
  of the wrong classes the label penalizes; cnt = 1 on a row labelled 0 (else 0).  The loss is
  (2/3) · Σfpe / (3·n + 2·(B - n)) + 2 · Σfne / n with n = Σcnt (Proof/RowLoss.lean, Proof/BatchLoss.lean).

  The reference takes the three sums over all rows at once (Proof/ReferenceRows.lean, Proof/ReferenceTotal.lean).  The
  kernel walks 1024 grid points of 8192 rows: each point adds its three partial sums onto one [1, 3] block that all points
  share, zeroed at the first point and written back after the last (Proof/KernelRows.lean, Proof/KernelPieces.lean,
  Proof/KernelLoads.lean, Proof/KernelTotals.lean); the host lines after the call combine the three entries
  (Proof/KernelTail.lean).  On the extended reals a sum over 1024 · 8192 rows is the sum over 1024 blocks of the sums
  over 8192 rows — addition there is commutative and associative, so no finiteness of the inputs is used — and every
  other operation is spelt the same way on both sides (the row maximum folded from -∞, the same exponential and quotient,
  the same constants), the reference's extra join of the row maximum with -∞ being the identity.

  The three frames are the generated ones (the reference's is its generated run with the result dropped); no operation
  was rewritten by the idealization, so that claim is trivial.
-/
import proofs.«174451_j6236292514430_2_alg».proof.Defs
import proofs.«174451_j6236292514430_2_alg».proof.Proof.Gen.Kernel
import proofs.«174451_j6236292514430_2_alg».proof.Proof.Gen.Kernel.Skeleton
import proofs.«174451_j6236292514430_2_alg».proof.Proof.Gen.Kernel.Launch
import proofs.«174451_j6236292514430_2_alg».proof.Proof.Gen.Kernel.Points
import proofs.«174451_j6236292514430_2_alg».proof.Proof.Gen.Kernel.Frame
import proofs.«174451_j6236292514430_2_alg».proof.Proof.Gen.KernelIdeal
import proofs.«174451_j6236292514430_2_alg».proof.Proof.Gen.KernelIdeal.Skeleton
import proofs.«174451_j6236292514430_2_alg».proof.Proof.Gen.KernelIdeal.Launch
import proofs.«174451_j6236292514430_2_alg».proof.Proof.Gen.KernelIdeal.Points
import proofs.«174451_j6236292514430_2_alg».proof.Proof.Gen.KernelIdeal.Frame
import proofs.«174451_j6236292514430_2_alg».proof.Proof.Gen.ReferenceIdeal
import proofs.«174451_j6236292514430_2_alg».proof.Proof.Gen.ReferenceIdeal.Run
import proofs.«174451_j6236292514430_2_alg».proof.Proof.Gen.ReferenceIdeal.Read
import proofs.«174451_j6236292514430_2_alg».proof.Proof.Gen.Pre_finite_inputs
import proofs.«174451_j6236292514430_2_alg».proof.Proof.KernelTail
import proofs.«174451_j6236292514430_2_alg».proof.Proof.ReferenceTotal
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the batch's loss of the argument arrays: the kernel by its run read as a value, the reference by
    its run read stage by stage, of arguments that agree. -/
theorem algebraic : Cert.algebraic_KernelIdeal_ReferenceIdeal := by
  intro m ρ m' ρ' _ hagree
  refine ⟨fun c _ => Cert.BatchLoss.total (Cert.KernelTail.logits m c) (Cert.KernelTail.labels m c),
    Cert.KernelTail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq]
  funext i
  rw [Cert.ReferenceTotal.result_eq, (hagree c).1, (hagree c).2]
  exact congr (congrArg Cert.BatchLoss.total (funext fun R => funext fun k => rfl)) (funext fun R => rfl)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
